-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63_0)) (v1 : (c : Dev Cert.KernelIdeal.nD) → Buf (Elt Ideal) ((c.tc : Thread Cert.KernelIdeal.nD Cert.KernelIdeal.τ).loc Cert.KernelIdeal.main_v63_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63_0) = v0 c
          ∧ r.2.mem ((c.tc : Thread Cert.KernelIdeal.nD Cert.KernelIdeal.τ).loc Cert.KernelIdeal.main_v63_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S16 .f32) (main_arg6 : FVec F S32x1 .f32) (main_arg7 : FVec F S1 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x3200000 32) (main_arg2 : FVec F S128x32 .f32) (main_arg3 : FVec F S32 .f32) (main_arg4 : FVec F S32x16 .f32) (main_arg5 : FVec F S16 .f32) (main_arg6 : FVec F S32x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg4
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg5 main_arg6 main_arg7 main_v13 main_v16
-- ==== Kernel.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S32x1 : Shape := ⟨2, ![32, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S5000x128 : Shape := ⟨2, ![5000, 128]⟩
abbrev S5000x32 : Shape := ⟨2, ![5000, 32]⟩
abbrev S3300000x32 : Shape := ⟨2, ![3300000, 32]⟩
abbrev S1x32 : Shape := ⟨2, ![1, 32]⟩
abbrev S32x17 : Shape := ⟨2, ![32, 17]⟩
abbrev S100000x17 : Shape := ⟨2, ![100000, 17]⟩
abbrev S5000x17 : Shape := ⟨2, ![5000, 17]⟩
abbrev S3300000x17 : Shape := ⟨2, ![3300000, 17]⟩
abbrev S1x16 : Shape := ⟨2, ![1, 16]⟩
abbrev S1x1 : Shape := ⟨2, ![1, 1]⟩
abbrev S100000x16 : Shape := ⟨2, ![100000, 16]⟩
abbrev S100000x1 : Shape := ⟨2, ![100000, 1]⟩
abbrev S5000x16 : Shape := ⟨2, ![5000, 16]⟩
abbrev S5000x1 : Shape := ⟨2, ![5000, 1]⟩
abbrev S5000 : Shape := ⟨1, ![5000]⟩

abbrev nBuf : Space → Nat
  | .hbm => 89
  | .vmem => 23
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S32x1, .f32⟩
  | .hbm, ⟨7, _⟩ => ⟨S1, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x32, .f32⟩
  | .hbm, ⟨49, _⟩ => ⟨S3300000x1, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x32, .f32⟩
  | .hbm, ⟨59, _⟩ => ⟨S3300000x32, .f32⟩
  | .hbm, ⟨60, _⟩ => ⟨S3300000x32, .f32⟩
  | .hbm, ⟨61, _⟩ => ⟨S_, .f32⟩
  | .hbm, ⟨62, _⟩ => ⟨S100000x32, .f32⟩
  | .hbm, ⟨63, _⟩ => ⟨S3300000x1, .i32⟩
  | .hbm, ⟨64, _⟩ => ⟨S100000x32, .f32⟩
  | .hbm, ⟨65, _⟩ => ⟨S1x32, .f32⟩
  | .hbm, ⟨66, _⟩ => ⟨S100000x32, .f32⟩
  | .hbm, ⟨67, _⟩ => ⟨S32x17, .f32⟩
  | .hbm, ⟨68, _⟩ => ⟨S100000x17, .f32⟩
  | .hbm, ⟨69, _⟩ => ⟨S3300000x1, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x17, .f32⟩
  | .hbm, ⟨79, _⟩ => ⟨S3300000x17, .f32⟩
  | .hbm, ⟨80, _⟩ => ⟨S3300000x17, .f32⟩
  | .hbm, ⟨81, _⟩ => ⟨S_, .f32⟩
  | .hbm, ⟨82, _⟩ => ⟨S100000x17, .f32⟩
  | .hbm, ⟨83, _⟩ => ⟨S3300000x1, .i32⟩
  | .hbm, ⟨84, _⟩ => ⟨S100000x17, .f32⟩
  | .hbm, ⟨85, _⟩ => ⟨S1x16, .f32⟩
  | .hbm, ⟨86, _⟩ => ⟨S1x1, .f32⟩
  | .hbm, ⟨87, _⟩ => ⟨S100000x16, .f32⟩
  | .hbm, ⟨88, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S128x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S1x32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S32x17, .f32⟩
  | .local _ .vmem, ⟨13, _⟩ => ⟨S5000x17, .f32⟩
  | .local _ .vmem, ⟨14, _⟩ => ⟨S5000x17, .f32⟩
  | .local _ .vmem, ⟨15, _⟩ => ⟨S5000x17, .f32⟩
  | .local _ .vmem, ⟨16, _⟩ => ⟨S5000x17, .f32⟩
  | .local _ .vmem, ⟨17, _⟩ => ⟨S1x16, .f32⟩
  | .local _ .vmem, ⟨18, _⟩ => ⟨S1x1, .f32⟩
  | .local _ .vmem, ⟨19, _⟩ => ⟨S5000x16, .f32⟩
  | .local _ .vmem, ⟨20, _⟩ => ⟨S5000x16, .f32⟩
  | .local _ .vmem, ⟨21, _⟩ => ⟨S5000x1, .f32⟩
  | .local _ .vmem, ⟨22, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63_0 : Ref sig .tc := ⟨.hbm, 87, rfl⟩
abbrev main_v63_1 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg3_1 : Ref sig .tc := ⟨.vmem, 20, rfl⟩
abbrev cc3_stg4_0 : Ref sig .tc := ⟨.vmem, 21, rfl⟩
abbrev cc3_stg4_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem3_1 : DmaSem sig := 20
abbrev cc3_sem4_0 : DmaSem sig := 21
abbrev cc3_sem4_1 : DmaSem sig := 22

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x17 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x17 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x17 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S5000x32_S5000x32_0_0 : ∀ a, (![0, 0] : Fin 2 → Nat) a + S5000x32.size a ≤ S5000x32.size a
  h_S5000x32 : 0 < S5000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  concatenates_S32x16_S32x1_S32x17_d1 : Shape.Concatenates [S32x16, S32x1] S32x17 1
  inb_S32x17_S32x17_0_0 : ∀ a, (![0, 0] : Fin 2 → Nat) a + S32x17.size a ≤ S32x17.size a
  h_S32x17 : 0 < S32x17.numel
  shapeCasts_S32x17_S32x17 : S32x17.ShapeCasts S32x17
  inb_S5000x17_S5000x17_0_0 : ∀ a, (![0, 0] : Fin 2 → Nat) a + S5000x17.size a ≤ S5000x17.size a
  h_S5000x17 : 0 < S5000x17.numel
  bcast_S3300000x1_S3300000x17_0_1 : S3300000x1.BroadcastsInDim S3300000x17 (![0, 1] : Fin 2 → Fin S3300000x17.rank)
  bcast_S_S100000x17 : S_.BroadcastsInDim S100000x17 (![] : Fin 0 → Fin S100000x17.rank)
  shapeCasts_S16_S1x16 : S16.ShapeCasts S1x16
  shapeCasts_S1_S1x1 : S1.ShapeCasts S1x1
  shapeCasts_S5000x17_S5000x17 : S5000x17.ShapeCasts S5000x17
  slices_S5000x17_o0_0_S5000x16 : S5000x17.Slices ![0, 0] S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  reduces_S5000x16_S5000 : S5000x16.Reduces [1] S5000
  shapeCasts_S5000_S5000x1 : S5000.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  slices_S5000x17_o0_16_S5000x1 : S5000x17.Slices ![0, 16] S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x128_S128x32_S5000x32_1_0_0_1_n_n_wf : DotDims.WF S5000x128 S128x32 S5000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S5000x32_S32x17_S5000x17_1_0_0_1_n_n_wf : DotDims.WF S5000x32 S32x17 S5000x17 [1] [0] [0] [1] [] []
  gather_S100000x17_S3300000x1_S3300000x17_1_0_n_n_0_1_117_wf : GatherDims.WF S100000x17 S3300000x1 S3300000x17 [1] [0] [] [0] [] 1 ![1, 17]
  scatter_S100000x17_S3300000x1_S3300000x17_1_0_0_1_wf : ScatterDims.WF S100000x17 S3300000x1 S3300000x17 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x17.size a ≤ S32x17.size a
  hwx2_1 : ∀ i : grid2.Coords, EltTy.bits .f32 = 32 ∨ (Rect.block (s := S32x17) S32x17.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x17.size a ≤ S100000x17.size a
  hwx2_2 : ∀ i : grid2.Coords, EltTy.bits .f32 = 32 ∨ (Rect.block (s := S100000x17) S5000x17.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x17.size a ≤ S100000x17.size a
  hwx3_0 : ∀ i : grid3.Coords, EltTy.bits .f32 = 32 ∨ (Rect.block (s := S100000x17) S5000x17.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x16.size a ≤ S100000x16.size a
  hwx3_3 : ∀ i : grid3.Coords, EltTy.bits .f32 = 32 ∨ (Rect.block (s := S100000x16) S5000x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x1.size a ≤ S100000x1.size a
  hwx3_4 : ∀ i : grid3.Coords, EltTy.bits .f32 = 32 ∨ (Rect.block (s := S100000x1) S5000x1.size (cc3_transform_4 i) (hinb3_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S5000x32_S32x17_S5000x17_1_0_0_1_n_n : DotDims S5000x32 S32x17 S5000x17 where
  lhsContracting := [1]
  rhsContracting := [0]
  lhsNonContracting := [0]
  rhsNonContracting := [1]
  lhsBatch := []
  rhsBatch := []
  wf := dot_S5000x32_S32x17_S5000x17_1_0_0_1_n_n_wf
def gather_S100000x17_S3300000x1_S3300000x17_1_0_n_n_0_1_117 : GatherDims S100000x17 S3300000x1 S3300000x17 where
  offsetDims := [1]
  collapsedSliceDims := [0]
  operandBatchingDims := []
  startIndicesBatchingDims := []
  startIndexMap := [0]
  indexVectorDim := 1
  sliceSizes := ![1, 17]
  wf := gather_S100000x17_S3300000x1_S3300000x17_1_0_n_n_0_1_117_wf
def scatter_S100000x17_S3300000x1_S3300000x17_1_0_0_1 : ScatterDims S100000x17 S3300000x1 S3300000x17 where
  updateWindowDims := [1]
  insertedWindowDims := [0]
  scatterDimsToOperandDims := [0]
  indexVectorDim := 1
  wf := scatter_S100000x17_S3300000x1_S3300000x17_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S32x17.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x17.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x17.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63_0) S5000x16.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v63_1) S5000x1.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S32x1 : Shape := ⟨2, ![32, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S100000x16 : Shape := ⟨2, ![100000, 16]⟩
abbrev S3300000x16 : Shape := ⟨2, ![3300000, 16]⟩
abbrev S1x16 : Shape := ⟨2, ![1, 16]⟩
abbrev S100000x1 : Shape := ⟨2, ![100000, 1]⟩
abbrev S1x1 : Shape := ⟨2, ![1, 1]⟩

abbrev nBuf : Space → Nat
  | .hbm => 134
  | .vmem => 0
  | .smem => 0
  | _ => 0

abbrev hbmTy0_0 (i : Nat) : BufTy := match i % 128 with
  | 0 => ⟨S100000x128, .f32⟩
  | 1 => ⟨S2x3200000, .i32⟩
  | 2 => ⟨S128x32, .f32⟩
  | 3 => ⟨S32, .f32⟩
  | 4 => ⟨S32x16, .f32⟩
  | 5 => ⟨S16, .f32⟩
  | 6 => ⟨S32x1, .f32⟩
  | 7 => ⟨S1, .f32⟩
  | 8 => ⟨S100000, .i32⟩
  | 9 => ⟨S1x3200000, .i32⟩
  | 10 => ⟨S3200000, .i32⟩
  | 11 => ⟨S3300000, .i32⟩
  | 12 => ⟨S1x3200000, .i32⟩
  | 13 => ⟨S3200000, .i32⟩
  | 14 => ⟨S3300000, .i32⟩
  | 15 => ⟨S_, .f32⟩
  | 16 => ⟨S3300000, .f32⟩
  | 17 => ⟨S_, .f32⟩
  | 18 => ⟨S100000, .f32⟩
  | 19 => ⟨S3300000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S3300000, .i32⟩
  | 31 => ⟨S3300000, .i1⟩
  | 32 => ⟨S_, .i32⟩
  | 33 => ⟨S3300000, .i32⟩
  | 34 => ⟨S3300000, .i32⟩
  | 35 => ⟨S3300000, .i32⟩
  | 36 => ⟨S3300000x1, .i32⟩
  | 37 => ⟨S3300000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S3300000, .f32⟩
  | 48 => ⟨S100000x32, .f32⟩
  | 49 => ⟨S3300000x1, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x32, .f32⟩
  | 59 => ⟨S3300000x32, .f32⟩
  | 60 => ⟨S3300000x32, .f32⟩
  | 61 => ⟨S_, .f32⟩
  | 62 => ⟨S100000x32, .f32⟩
  | 63 => ⟨S3300000x1, .i32⟩
  | 64 => ⟨S100000x32, .f32⟩
  | 65 => ⟨S1x32, .f32⟩
  | 66 => ⟨S100000x32, .f32⟩
  | 67 => ⟨S100000x32, .f32⟩
  | 68 => ⟨S_, .f32⟩
  | 69 => ⟨S100000x32, .f32⟩
  | 70 => ⟨S100000x32, .f32⟩
  | 71 => ⟨S100000x16, .f32⟩
  | 72 => ⟨S3300000x1, .f32⟩
  | 73 => ⟨S_, .i32⟩
  | 74 => ⟨S3300000, .i32⟩
  | 75 => ⟨S3300000, .i1⟩
  | 76 => ⟨S_, .i32⟩
  | 77 => ⟨S3300000, .i32⟩
  | 78 => ⟨S3300000, .i32⟩
  | 79 => ⟨S3300000, .i32⟩
  | 80 => ⟨S3300000x1, .i32⟩
  | 81 => ⟨S3300000x16, .f32⟩
  | 82 => ⟨S3300000x16, .f32⟩
  | 83 => ⟨S3300000x16, .f32⟩
  | 84 => ⟨S_, .f32⟩
  | 85 => ⟨S100000x16, .f32⟩
  | 86 => ⟨S3300000x1, .i32⟩
  | 87 => ⟨S100000x16, .f32⟩
  | 88 => ⟨S1x16, .f32⟩
  | 89 => ⟨S100000x16, .f32⟩
  | 90 => ⟨S100000x16, .f32⟩
  | 91 => ⟨S100000x16, .f32⟩
  | 92 => ⟨S_, .f32⟩
  | 93 => ⟨S100000, .f32⟩
  | 94 => ⟨S100000x1, .f32⟩
  | 95 => ⟨S100000x1, .f32⟩
  | 96 => ⟨S100000x16, .f32⟩
  | 97 => ⟨S100000x16, .f32⟩
  | 98 => ⟨S100000x1, .f32⟩
  | 99 => ⟨S3300000x1, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000x1, .f32⟩
  | 109 => ⟨S3300000x1, .f32⟩
  | 110 => ⟨S_, .f32⟩
  | 111 => ⟨S100000x1, .f32⟩
  | 112 => ⟨S3300000x1, .i32⟩
  | 113 => ⟨S100000x1, .f32⟩
  | 114 => ⟨S1x1, .f32⟩
  | 115 => ⟨S100000x1, .f32⟩
  | 116 => ⟨S100000x1, .f32⟩
  | 117 => ⟨S_, .f32⟩
  | 118 => ⟨S100000x1, .f32⟩
  | 119 => ⟨S100000x1, .f32⟩
  | 120 => ⟨S100000x1, .f32⟩
  | 121 => ⟨S100000x1, .f32⟩
  | 122 => ⟨S100000x1, .i1⟩
  | 123 => ⟨S100000x1, .f32⟩
  | 124 => ⟨S100000x1, .f32⟩
  | 125 => ⟨S100000x1, .f32⟩
  | 126 => ⟨S100000x1, .f32⟩
  | 127 => ⟨S100000x1, .f32⟩
  | _ => ⟨S100000x128, .f32⟩

abbrev hbmTy0_1 (i : Nat) : BufTy := match i % 128 with
  | 0 => ⟨S100000x1, .f32⟩
  | 1 => ⟨S100000x1, .f32⟩
  | 2 => ⟨S100000x1, .f32⟩
  | 3 => ⟨S_, .f32⟩
  | 4 => ⟨S100000x1, .f32⟩
  | 5 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_v0 : Ref sig .tc := ⟨.hbm, 91, rfl⟩
abbrev main_call2_cst : Ref sig .tc := ⟨.hbm, 92, rfl⟩
abbrev main_call2_v1 : Ref sig .tc := ⟨.hbm, 93, rfl⟩
abbrev main_call2_v2 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_12 : Ref sig .tc := ⟨.hbm, 100, rfl⟩
abbrev main_v70 : Ref sig .tc := ⟨.hbm, 101, rfl⟩
abbrev main_v71 : Ref sig .tc := ⟨.hbm, 102, rfl⟩
abbrev main_c_13 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_14 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_call3_cst : Ref sig .tc := ⟨.hbm, 117, rfl⟩
abbrev main_call3_v0 : Ref sig .tc := ⟨.hbm, 118, rfl⟩
abbrev main_call3_v1 : Ref sig .tc := ⟨.hbm, 119, rfl⟩
abbrev main_call3_v2 : Ref sig .tc := ⟨.hbm, 120, rfl⟩
abbrev main_call3_v3 : Ref sig .tc := ⟨.hbm, 121, rfl⟩
abbrev main_call3_v4 : Ref sig .tc := ⟨.hbm, 122, rfl⟩
abbrev main_call3_v5 : Ref sig .tc := ⟨.hbm, 123, rfl⟩
abbrev main_call3_v6 : Ref sig .tc := ⟨.hbm, 124, rfl⟩
abbrev main_call3_v7 : Ref sig .tc := ⟨.hbm, 125, rfl⟩
abbrev main_call3_v8 : Ref sig .tc := ⟨.hbm, 126, rfl⟩
abbrev main_call3_v9 : Ref sig .tc := ⟨.hbm, 127, rfl⟩
abbrev main_call3_v10 : Ref sig .tc := ⟨.hbm, 128, rfl⟩
abbrev main_call3_v11 : Ref sig .tc := ⟨.hbm, 129, rfl⟩
abbrev main_v84 : Ref sig .tc := ⟨.hbm, 130, rfl⟩
abbrev main_cst_15 : Ref sig .tc := ⟨.hbm, 131, rfl⟩
abbrev main_v85 : Ref sig .tc := ⟨.hbm, 132, rfl⟩
abbrev main_v86 : Ref sig .tc := ⟨.hbm, 133, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x32_S100000x32_1_0_0_1_n_n_wf : DotDims.WF S100000x128 S128x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x16_S100000x16_1_0_0_1_n_n_wf : DotDims.WF S100000x32 S32x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x32_S32x1_S100000x1_1_0_0_1_n_n_wf : DotDims.WF S100000x32 S32x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.KRun.lean ====
/-
  The idealized kernel program's run with its two result arrays in the post: every weakly fair execution of @main
  terminates without a fault, and ends with the mean array and the variance array at what the last region's
  write-backs leave (the contents of the last segment boundary), every argument array as launched. The launch over
  the program's ten segments (six stretches of host operations, four pallas_call regions) is the one the frame of the
  program uses; only the part of the final memory that is kept differs.
-/
import proofs.«170862_j23587960389966_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the implicit arguments of the library's theorem on a program of several regions are found by unifying its conclusion
-- with this statement, which takes unfolding plain definitions in a metavariable's type
set_option backward.isDefEq.respectTransparency.types false in
/-- The run of @main, at any float instance: it ends, nothing faults, the two results hold the last boundary's
    contents of their buffers and the eight arguments are unchanged. -/
theorem run_results : θ_run defs (onTc (τ := τ) (main (F := F))) ⟨m, fun _ => 0, ρ⟩ (fun r => ∀ c : Dev nD,
      r.2.mem ((c.tc : Thread nD τ).loc main_v63_0) = W10 m ρ c (Proc.devRef .tc main_v63_0)
      ∧ r.2.mem ((c.tc : Thread nD τ).loc main_v63_1) = W10 m ρ c (Proc.devRef .tc main_v63_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v63_0 (by decide)),
       h c _ (mem_uc main_v63_1 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.ValueRun

end
-- ==== Proof.KFold.lean ====
/-
  The contents of the idealized kernel program's buffers at the boundaries between its segments (six stretches of host
  operations, four regions): which buffers a segment leaves alone, what each stretch of host operations writes as a term
  of what it reads, and that a region's output array ends at what the region's write-backs leave. Nothing here opens
  an operation: the terms are the program's own.
-/
import proofs.«170862_j23587960389966_1_alg».proof.Proof.Gen.KernelIdeal.Frame
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- A buffer that no operation of a stretch of host operations writes holds after the stretch what it held before. -/
macro "host_keeps " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## Argument arrays at the boundaries where a region or a stretch of host operations reads them -/

/-- The node features as the first product finds them: the launch contents. -/
theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by host_keeps hostOps0_2
    _ = W1 m ρ c (Proc.devRef .tc main_arg0) := by host_keeps hostOps0_1
    _ = W0 m ρ c (Proc.devRef .tc main_arg0) := by host_keeps hostOps0
    _ = m ((c : Thread nD τ).loc main_arg0) := rfl

/-- The first layer's weights as the first product finds them: the launch contents. -/
theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by host_keeps hostOps0_2
    _ = W1 m ρ c (Proc.devRef .tc main_arg2) := by host_keeps hostOps0_1
    _ = W0 m ρ c (Proc.devRef .tc main_arg2) := by host_keeps hostOps0
    _ = m ((c : Thread nD τ).loc main_arg2) := rfl

/-- The first layer's bias after the first product: the launch contents. -/
theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by host_keeps hostOps0_2
    _ = W1 m ρ c (Proc.devRef .tc main_arg3) := by host_keeps hostOps0_1
    _ = W0 m ρ c (Proc.devRef .tc main_arg3) := by host_keeps hostOps0
    _ = m ((c : Thread nD τ).loc main_arg3) := rfl

/-- The mean head's weights after the bias-and-rectify pass: the launch contents. -/
theorem W6_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := by host_keeps hostOps1
    _ = W3 m ρ c (Proc.devRef .tc main_arg4) := W4_of_ne m ρ c main_arg4 (by decide)
    _ = W2 m ρ c (Proc.devRef .tc main_arg4) := by host_keeps hostOps0_2
    _ = W1 m ρ c (Proc.devRef .tc main_arg4) := by host_keeps hostOps0_1
    _ = W0 m ρ c (Proc.devRef .tc main_arg4) := by host_keeps hostOps0
    _ = m ((c : Thread nD τ).loc main_arg4) := rfl

/-- The variance head's weights after the bias-and-rectify pass: the launch contents. -/
theorem W6_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := by host_keeps hostOps1
    _ = W3 m ρ c (Proc.devRef .tc main_arg6) := W4_of_ne m ρ c main_arg6 (by decide)
    _ = W2 m ρ c (Proc.devRef .tc main_arg6) := by host_keeps hostOps0_2
    _ = W1 m ρ c (Proc.devRef .tc main_arg6) := by host_keeps hostOps0_1
    _ = W0 m ρ c (Proc.devRef .tc main_arg6) := by host_keeps hostOps0
    _ = m ((c : Thread nD τ).loc main_arg6) := rfl

/-- The mean head's bias after the second product: the launch contents. -/
theorem W8_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := by host_keeps hostOps2
    _ = W5 m ρ c (Proc.devRef .tc main_arg5) := W6_of_ne m ρ c main_arg5 (by decide)
    _ = W4 m ρ c (Proc.devRef .tc main_arg5) := by host_keeps hostOps1
    _ = W3 m ρ c (Proc.devRef .tc main_arg5) := W4_of_ne m ρ c main_arg5 (by decide)
    _ = W2 m ρ c (Proc.devRef .tc main_arg5) := by host_keeps hostOps0_2
    _ = W1 m ρ c (Proc.devRef .tc main_arg5) := by host_keeps hostOps0_1
    _ = W0 m ρ c (Proc.devRef .tc main_arg5) := by host_keeps hostOps0
    _ = m ((c : Thread nD τ).loc main_arg5) := rfl

/-- The variance head's bias after the second product: the launch contents. -/
theorem W8_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := by host_keeps hostOps2
    _ = W5 m ρ c (Proc.devRef .tc main_arg7) := W6_of_ne m ρ c main_arg7 (by decide)
    _ = W4 m ρ c (Proc.devRef .tc main_arg7) := by host_keeps hostOps1
    _ = W3 m ρ c (Proc.devRef .tc main_arg7) := W4_of_ne m ρ c main_arg7 (by decide)
    _ = W2 m ρ c (Proc.devRef .tc main_arg7) := by host_keeps hostOps0_2
    _ = W1 m ρ c (Proc.devRef .tc main_arg7) := by host_keeps hostOps0_1
    _ = W0 m ρ c (Proc.devRef .tc main_arg7) := by host_keeps hostOps0
    _ = m ((c : Thread nD τ).loc main_arg7) := rfl

/-! ## The edge data (source node, destination node, weight of each edge) is computed before the first region and never written again -/

/-- The edge weights after the first product are those computed before it. -/
theorem W4_v29 (c : Dev nD) : W4 m ρ c (Proc.devRef .tc main_v29) = W3 m ρ c (Proc.devRef .tc main_v29) :=
  calc W4 m ρ c (Proc.devRef .tc main_v29)
    _ = W3 m ρ c (Proc.devRef .tc main_v29) := W4_of_ne m ρ c main_v29 (by decide)

/-- The edge weights after the second product are those computed before the first. -/
theorem W8_v29 (c : Dev nD) : W8 m ρ c (Proc.devRef .tc main_v29) = W3 m ρ c (Proc.devRef .tc main_v29) :=
  calc W8 m ρ c (Proc.devRef .tc main_v29)
    _ = W7 m ρ c (Proc.devRef .tc main_v29) := W8_of_ne m ρ c main_v29 (by decide)
    _ = W6 m ρ c (Proc.devRef .tc main_v29) := by host_keeps hostOps2
    _ = W5 m ρ c (Proc.devRef .tc main_v29) := W6_of_ne m ρ c main_v29 (by decide)
    _ = W4 m ρ c (Proc.devRef .tc main_v29) := by host_keeps hostOps1
    _ = W3 m ρ c (Proc.devRef .tc main_v29) := W4_of_ne m ρ c main_v29 (by decide)

/-- The source nodes after the first product are those computed before it. -/
theorem W4_v3 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

/-- The source nodes after the second product are those computed before the first. -/
theorem W8_v3 (c : Dev nD) : W8 m ρ c (Proc.devRef .tc main_v3) = W3 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := by host_keeps hostOps2
    _ = W5 m ρ c (Proc.devRef .tc main_v3) := W6_of_ne m ρ c main_v3 (by decide)
    _ = W4 m ρ c (Proc.devRef .tc main_v3) := by host_keeps hostOps1
    _ = W3 m ρ c (Proc.devRef .tc main_v3) := W4_of_ne m ρ c main_v3 (by decide)

/-- The destination nodes after the first product are those computed before it. -/
theorem W4_v6 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

/-- The destination nodes after the second product are those computed before the first. -/
theorem W8_v6 (c : Dev nD) : W8 m ρ c (Proc.devRef .tc main_v6) = W3 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := by host_keeps hostOps2
    _ = W5 m ρ c (Proc.devRef .tc main_v6) := W6_of_ne m ρ c main_v6 (by decide)
    _ = W4 m ρ c (Proc.devRef .tc main_v6) := by host_keeps hostOps1
    _ = W3 m ρ c (Proc.devRef .tc main_v6) := W4_of_ne m ρ c main_v6 (by decide)

/-! ## What each stretch of host operations between the regions writes, as a term of what it reads. Stated from
    ANY contents `V` of the buffers before the stretch, so that nothing of the earlier segments is ever opened. -/

section Stretches
variable (V : Valuation τ sig (Elt F))

set_option maxHeartbeats 2000000 in
/-- The first aggregation: the 32-column products of the first region, gathered along the edges' source nodes, scaled by the
    edge weights and summed into the edges' destination nodes. -/
theorem stretch1_v43 : StableHlo.after hostOps1 V (Proc.devRef .tc main_v43) =
    Host.scatterAdd scatter_S100000x32_S3300000x1_S3300000x32_1_0_0_1
      (broadcastInDim S100000x32 ![] bcast_S_S100000x32 (constant S_ .f32 0x00000000#32))
      (broadcastInDim S3300000x1 ![0] bcast_S3300000_S3300000x1_0 (V (Proc.devRef .tc main_v6)))
      (mulf (broadcastInDim S3300000x32 ![0, 1] bcast_S3300000x1_S3300000x32_0_1 (broadcastInDim S3300000x1 ![0] bcast_S3300000_S3300000x1_0 (V (Proc.devRef .tc main_v29))))
        (Host.gather gather_S100000x32_S3300000x1_S3300000x32_1_0_n_n_0_1_132 (V (Proc.devRef .tc main_v30)) (broadcastInDim S3300000x1 ![0] bcast_S3300000_S3300000x1_0 (select (cmpi .slt (V (Proc.devRef .tc main_v3)) (broadcastInDim S3300000 ![] bcast_S_S3300000 (constantI S_ 32 0#32))) (addi (V (Proc.devRef .tc main_v3)) (broadcastInDim S3300000 ![] bcast_S_S3300000 (constantI S_ 32 100000#32))) (V (Proc.devRef .tc main_v3)))))) := by
  after_results_simp

/-- The first layer's bias as a one-row matrix. -/
theorem stretch1_v44 : StableHlo.after hostOps1 V (Proc.devRef .tc main_v44) =
    shapeCast S1x32 (V (Proc.devRef .tc main_arg3)) shapeCasts_S32_S1x32 := by
  after_results
  rfl

/-- The two heads' weights side by side: sixteen columns of the mean head, then the one column of the variance head. -/
theorem stretch2_v46 : StableHlo.after hostOps2 V (Proc.devRef .tc main_v46) =
    concatenate S32x17 1 [⟨S32x16, V (Proc.devRef .tc main_arg4)⟩, ⟨S32x1, V (Proc.devRef .tc main_arg6)⟩] concatenates_S32x16_S32x1_S32x17_d1 := by
  after_results

set_option maxHeartbeats 2000000 in
/-- The second aggregation, over all seventeen columns of the second product at once. -/
theorem stretch3_v60 : StableHlo.after hostOps3 V (Proc.devRef .tc main_v60) =
    Host.scatterAdd scatter_S100000x17_S3300000x1_S3300000x17_1_0_0_1
      (broadcastInDim S100000x17 ![] bcast_S_S100000x17 (constant S_ .f32 0x00000000#32))
      (broadcastInDim S3300000x1 ![0] bcast_S3300000_S3300000x1_0 (V (Proc.devRef .tc main_v6)))
      (mulf (broadcastInDim S3300000x17 ![0, 1] bcast_S3300000x1_S3300000x17_0_1 (broadcastInDim S3300000x1 ![0] bcast_S3300000_S3300000x1_0 (V (Proc.devRef .tc main_v29))))
        (Host.gather gather_S100000x17_S3300000x1_S3300000x17_1_0_n_n_0_1_117 (V (Proc.devRef .tc main_v47)) (broadcastInDim S3300000x1 ![0] bcast_S3300000_S3300000x1_0 (select (cmpi .slt (V (Proc.devRef .tc main_v3)) (broadcastInDim S3300000 ![] bcast_S_S3300000 (constantI S_ 32 0#32))) (addi (V (Proc.devRef .tc main_v3)) (broadcastInDim S3300000 ![] bcast_S_S3300000 (constantI S_ 32 100000#32))) (V (Proc.devRef .tc main_v3)))))) := by
  after_results_simp

/-- The mean head's bias as a one-row matrix. -/
theorem stretch3_v61 : StableHlo.after hostOps3 V (Proc.devRef .tc main_v61) =
    shapeCast S1x16 (V (Proc.devRef .tc main_arg5)) shapeCasts_S16_S1x16 := by
  after_results
  rfl

/-- The variance head's bias as a one-by-one matrix. -/
theorem stretch3_v62 : StableHlo.after hostOps3 V (Proc.devRef .tc main_v62) =
    shapeCast S1x1 (V (Proc.devRef .tc main_arg7)) shapeCasts_S1_S1x1 := by
  after_results
  rfl

end Stretches

/-- The rectified first layer reaches the second product as the second region left it. -/
theorem W7_v45 (c : Dev nD) : W7 m ρ c (Proc.devRef .tc main_v45) = W6 m ρ c (Proc.devRef .tc main_v45) := by
  host_keeps hostOps2

/-! ## A region's output array after the region is what its write-backs leave -/

theorem W4_v30 (c : Dev nD) : W4 m ρ c (Proc.devRef .tc main_v30) = (dat0 (V3 m ρ) c).arrAt 2 cfg0.N := W4_arr m ρ c 2
theorem W6_v45 (c : Dev nD) : W6 m ρ c (Proc.devRef .tc main_v45) = (dat1 (V5 m ρ) c).arrAt 2 cfg1.N := W6_arr m ρ c 2
theorem W8_v47 (c : Dev nD) : W8 m ρ c (Proc.devRef .tc main_v47) = (dat2 (V7 m ρ) c).arrAt 2 cfg2.N := W8_arr m ρ c 2
theorem W10_mean (c : Dev nD) : W10 m ρ c (Proc.devRef .tc main_v63_0) = (dat3 (V9 m ρ) c).arrAt 3 cfg3.N := W10_arr m ρ c 3
theorem W10_var (c : Dev nD) : W10 m ρ c (Proc.devRef .tc main_v63_1) = (dat3 (V9 m ρ) c).arrAt 4 cfg3.N := W10_arr m ρ c 4

end Cert.KernelIdeal.Fold

end
-- ==== Proof.KGlue.lean ====
/-
  The edge data of the idealized kernel program — the source node and the destination node of every edge (the given
  edges followed by one self-loop per node) and the edge's weight, the product of the two end nodes' inverse square-root
  degrees — is computed by the same operations, in the same order, as in the reference. So at the boundary before
  the first region these three buffers hold the reference's stages of the edge-index argument.
-/
import proofs.«170862_j23587960389966_1_alg».proof.Proof.Gen.KernelIdeal.Frame
import Idealize.ShloMosaic.Lib.StableHlo.Run
import proofs.«170862_j23587960389966_1_alg».proof.Proof.RefRead

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

section Launch
variable (V : Valuation τ sig (Elt F))

/-- From any launch contents, the source node of every edge after the three launch-side stretches is the reference's stage
    of the edge-index argument. -/
theorem launch_src : StableHlo.after hostOps0_2 (StableHlo.after hostOps0_1 (StableHlo.after hostOps0 V)) (Proc.devRef .tc main_v3)
    = Cert.ReferenceIdeal.Read.val_main_v3 (F := F) (V (Proc.devRef .tc main_arg1)) := by
  after_results
  rfl

/-- Likewise the destination node of every edge. -/
theorem launch_dst : StableHlo.after hostOps0_2 (StableHlo.after hostOps0_1 (StableHlo.after hostOps0 V)) (Proc.devRef .tc main_v6)
    = Cert.ReferenceIdeal.Read.val_main_v6 (F := F) (V (Proc.devRef .tc main_arg1)) := by
  after_results
  rfl

set_option maxHeartbeats 2000000 in
/-- Likewise the weight of every edge. -/
theorem launch_weight : StableHlo.after hostOps0_2 (StableHlo.after hostOps0_1 (StableHlo.after hostOps0 V)) (Proc.devRef .tc main_v29)
    = Cert.ReferenceIdeal.Read.val_main_v29 (F := F) (V (Proc.devRef .tc main_arg1)) := by
  after_results_simp
  rfl

end Launch

/-- The source node of every edge, before the first region, is the reference's stage. -/
theorem W3_src (c : Dev nD) : W3 m ρ c (Proc.devRef .tc main_v3)
    = Cert.ReferenceIdeal.Read.val_main_v3 (F := F) (m ((c : Thread nD τ).loc main_arg1)) := launch_src (W0 m ρ c)

/-- The destination node of every edge, before the first region, is the reference's stage. -/
theorem W3_dst (c : Dev nD) : W3 m ρ c (Proc.devRef .tc main_v6)
    = Cert.ReferenceIdeal.Read.val_main_v6 (F := F) (m ((c : Thread nD τ).loc main_arg1)) := launch_dst (W0 m ρ c)

/-- The weight of every edge, before the first region, is the reference's stage. -/
theorem W3_weight (c : Dev nD) : W3 m ρ c (Proc.devRef .tc main_v29)
    = Cert.ReferenceIdeal.Read.val_main_v29 (F := F) (m ((c : Thread nD τ).loc main_arg1)) := launch_weight (W0 m ρ c)

end Cert.KernelIdeal.Glue

end
-- ==== Proof.Spec.lean ====
/-
  Shared vocabulary for the value proofs of this certificate: a rank-2 array given by a function of its row and
  column, and the entry of a matrix product as a finite sum over the contracted axis. Everything is over the
  extended reals, where a float of the idealized programs lives.
-/
import Idealize.ShloMosaic.PureOps.Ideal
import Idealize.ShloMosaic.Lib.ValueIdx

noncomputable section

namespace Cert.GcnSpec

open Idealize.ShloMosaic Idealize.ShloMosaic.ValueIdx

/-- The rank-2 array whose entry at row `a`, column `b` is `f a b`. -/
def arr2 {α : Type} {n0 n1 : Nat} (f : Fin n0 → Fin n1 → α) : (⟨2, ![n0, n1]⟩ : Shape).Idx → α :=
  fun i => f ⟨(i 0).val, idx2_lt0 i⟩ ⟨(i 1).val, idx2_lt1 i⟩

/-- Reading `arr2 f` at the index built from a row and a column gives `f` there. -/
theorem arr2_ix2 {α : Type} {n0 n1 : Nat} (f : Fin n0 → Fin n1 → α) (a : Fin n0) (b : Fin n1) :
    arr2 f (ix2 a b) = f a b := rfl

/-- Two rank-2 arrays are equal when they agree at every (row, column). -/
theorem ext2 {α : Type} {n0 n1 : Nat} {g h : (⟨2, ![n0, n1]⟩ : Shape).Idx → α}
    (e : ∀ (a : Fin n0) (b : Fin n1), g (ix2 a b) = h (ix2 a b)) : g = h := by
  funext i; rw [eq_ix2 i]; exact e _ _

/-- Entry (a, b) of the product of an n×k array with a k×c array: the sum over the contracted axis. -/
def mmAt {n k c : Nat} (x : (⟨2, ![n, k]⟩ : Shape).Idx → EReal) (w : (⟨2, ![k, c]⟩ : Shape).Idx → EReal)
    (a : Fin n) (b : Fin c) : EReal :=
  ∑ q : Fin k, x (ix2 a q) * w (ix2 q b)

end Cert.GcnSpec

end
-- ==== Proof.Region0.lean ====
/-
  The first matmul region of the idealized kernel program, read as a value: after its pipeline the region's output
  array is the product of its two operand arrays, entry by entry, at the ideal values — for any contents the region is
  entered with. The body's product block is read at one (row, column) as the sum over the contracted coordinate; each
  grid point writes back one block of 5000 rows of the product array; the 20 blocks tile the array.
-/
import proofs.«170862_j23587960389966_1_alg».proof.Proof.Spec
import proofs.«170862_j23587960389966_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

-- membership in a rectangle of the arrays' full extents unfolds once per coordinate of the long axis
set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-- The first operand's index at output index `j` and contraction index `k`: row of `j`. -/
theorem lhs0_row (j : S5000x32.Idx) (k : Cert.KernelIdeal.dot_S5000x128_S128x32_S5000x32_1_0_0_1_n_n.contr.Idx) :
    (Cert.KernelIdeal.dot_S5000x128_S128x32_S5000x32_1_0_0_1_n_n.lhsIdx j k 0).val = (j 0).val := by
  unfold DotDims.lhsIdx
  rw [dif_neg (show ¬(0 : Fin S5000x128.rank) ∈ Cert.KernelIdeal.dot_S5000x128_S128x32_S5000x32_1_0_0_1_n_n.lhsBatch by decide), dif_pos (show (0 : Fin S5000x128.rank) ∈ Cert.KernelIdeal.dot_S5000x128_S128x32_S5000x32_1_0_0_1_n_n.lhsNonContracting by decide)]
  rfl
theorem lhs0_col (j : S5000x32.Idx) (k : Cert.KernelIdeal.dot_S5000x128_S128x32_S5000x32_1_0_0_1_n_n.contr.Idx) :
    (Cert.KernelIdeal.dot_S5000x128_S128x32_S5000x32_1_0_0_1_n_n.lhsIdx j k 1).val = (k ⟨0, by decide⟩).val :=
  Cert.KernelIdeal.dot_S5000x128_S128x32_S5000x32_1_0_0_1_n_n.lhsIdx_val_of_single rfl j k
theorem rhs0_row (j : S5000x32.Idx) (k : Cert.KernelIdeal.dot_S5000x128_S128x32_S5000x32_1_0_0_1_n_n.contr.Idx) :
    (Cert.KernelIdeal.dot_S5000x128_S128x32_S5000x32_1_0_0_1_n_n.rhsIdx j k 0).val = (k ⟨0, by decide⟩).val :=
  Cert.KernelIdeal.dot_S5000x128_S128x32_S5000x32_1_0_0_1_n_n.rhsIdx_val_of_single rfl j k
theorem rhs0_col (j : S5000x32.Idx) (k : Cert.KernelIdeal.dot_S5000x128_S128x32_S5000x32_1_0_0_1_n_n.contr.Idx) :
    (Cert.KernelIdeal.dot_S5000x128_S128x32_S5000x32_1_0_0_1_n_n.rhsIdx j k 1).val = (j 1).val := by
  unfold DotDims.rhsIdx
  rw [dif_neg (show ¬(1 : Fin S128x32.rank) ∈ Cert.KernelIdeal.dot_S5000x128_S128x32_S5000x32_1_0_0_1_n_n.rhsBatch by decide), dif_pos (show (1 : Fin S128x32.rank) ∈ Cert.KernelIdeal.dot_S5000x128_S128x32_S5000x32_1_0_0_1_n_n.rhsNonContracting by decide)]
  rfl

/-- The body's product block at row `p`, column `q`: the sum over the 128 contracted coordinates of the first block's
    row `p` times the second block's column `q` (the narrowing to bf16 is the identity on the ideal values, and the
    accumulator is the zero block). -/
theorem matmul0_apply (x0 : Vec Ideal S5000x128 .f32) (x1 : Vec Ideal S128x32 .f32) (p : Fin 5000) (q : Fin 32) :
    k0_pay1 (F := Ideal) x0 x1 (ix2 p q) = ∑ k : Fin 128, x0 (ix2 p k) * x1 (ix2 k q) := by
  unfold k0_pay1
  simp only [matmul]
  rw [Ideal.matmul_constant_zero_apply, ← Equiv.sum_comp (contrEquiv1 Cert.KernelIdeal.dot_S5000x128_S128x32_S5000x32_1_0_0_1_n_n 128 rfl rfl).symm]
  refine Finset.sum_congr rfl fun k _ => ?_
  have hk := contrEquiv1_symm_val Cert.KernelIdeal.dot_S5000x128_S128x32_S5000x32_1_0_0_1_n_n 128 rfl rfl k
  have el : Cert.KernelIdeal.dot_S5000x128_S128x32_S5000x32_1_0_0_1_n_n.lhsIdx (ix2 p q) ((contrEquiv1 Cert.KernelIdeal.dot_S5000x128_S128x32_S5000x32_1_0_0_1_n_n 128 rfl rfl).symm k) = ix2 p k := funext fun a => Fin.ext (by
    match a with
    | ⟨0, _⟩ => exact lhs0_row _ _
    | ⟨1, _⟩ => exact (lhs0_col _ _).trans hk)
  have er : Cert.KernelIdeal.dot_S5000x128_S128x32_S5000x32_1_0_0_1_n_n.rhsIdx (ix2 p q) ((contrEquiv1 Cert.KernelIdeal.dot_S5000x128_S128x32_S5000x32_1_0_0_1_n_n 128 rfl rfl).symm k) = ix2 k q := funext fun a => Fin.ext (by
    match a with
    | ⟨0, _⟩ => exact (rhs0_row _ _).trans hk
    | ⟨1, _⟩ => exact rhs0_col _ _)
  rw [truncf_apply, truncf_apply, el, er]

open Cert.GcnSpec

variable (V : (c : Dev nD) → (b : Ref sig .tc) → Buf (Elt Ideal) ((c : Thread nD τ).loc b))

/-- The zero offsets of a whole-buffer access, spelt as the constant function. -/
theorem zero_offsets0 : (![0, 0] : Fin 2 → Nat) = fun _ => 0 := funext fun a => by fin_cases a <;> rfl

/-- The product array: entry (a, b) is the sum over the contracted axis of row `a` of the first argument array times
    column `b` of the second, both as the region finds them. -/
abbrev product0 (c : Dev nD) : S100000x32.Idx → EReal :=
  arr2 (mmAt (n := 100000) (k := 128) (c := 32) (V c main_arg0 : S100000x128.Idx → EReal) (V c main_arg2 : S128x32.Idx → EReal))

/-- The printed index maps, decided once over the 20 grid points: the first operand's row block moves with the output's,
    which is the point's number; every other block index is 0. -/
theorem block_indices0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The first operand's block at point `t`, read at (p, k), is the argument array at row `5000 · t + p`, column `k`. -/
theorem lhs_block0 (c : Dev nD) (t : Fin cfg0.N) (p : Fin 5000) (k : Fin 128) (r : Fin 100000)
    (hr : r.val = win0_2.index t (0 : Fin 2) * 5000 + p.val) :
    iblk0 V c 0 t (ix2 p k) = (V c main_arg0 : S100000x128.Idx → EReal) (ix2 r k) := by
  obtain ⟨e0, e1, -, -, -, -⟩ := block_indices0 t
  unfold iblk0
  rw [View.read_apply]
  show V c main_arg0 _ = V c main_arg0 _
  congr 1
  funext a
  apply Fin.ext
  match a with
  | ⟨0, _⟩ => show win0_0.index t (0 : Fin 2) * 5000 + 1 * p.val = r.val; omega
  | ⟨1, _⟩ => show win0_0.index t (1 : Fin 2) * 128 + 1 * k.val = k.val; omega

/-- The second operand's block at any point is the whole second argument array. -/
theorem rhs_block0 (c : Dev nD) (t : Fin cfg0.N) (k : Fin 128) (q : Fin 32) :
    iblk0 V c 1 t (ix2 k q) = (V c main_arg2 : S128x32.Idx → EReal) (ix2 k q) := by
  obtain ⟨-, -, e2, e3, -, -⟩ := block_indices0 t
  unfold iblk0
  rw [View.read_apply]
  show V c main_arg2 _ = V c main_arg2 _
  congr 1
  funext a
  apply Fin.ext
  match a with
  | ⟨0, _⟩ => show win0_1.index t (0 : Fin 2) * 128 + 1 * k.val = k.val; omega
  | ⟨1, _⟩ => show win0_1.index t (1 : Fin 2) * 32 + 1 * q.val = q.val; omega

/-- The output block's index (p, q) at point `t` is row `5000 · t + p`, column `q` of the output array. -/
theorem out_block0 (t : Fin cfg0.N) (p : Fin 5000) (q : Fin 32) (r : Fin 100000)
    (hr : r.val = win0_2.index t (0 : Fin 2) * 5000 + p.val) :
    ((cfg0.win 2).blk t).view.emb (ix2 p q) = (ix2 r q : S100000x32.Idx) := by
  obtain ⟨-, -, -, -, -, e5⟩ := block_indices0 t
  funext a
  apply Fin.ext
  match a with
  | ⟨0, _⟩ => show win0_2.index t (0 : Fin 2) * 5000 + 1 * p.val = r.val; omega
  | ⟨1, _⟩ => show win0_2.index t (1 : Fin 2) * 32 + 1 * q.val = q.val; omega

/-- WHAT POINT `t` WRITES BACK is block `t` of the product array. -/
theorem flushed0_eq (c : Dev nD) (t : Fin cfg0.N) :
    (dat0 (F := Ideal) V c).flushed 2 t = ((cfg0.win 2).blk t).view.read (Elt Ideal) (product0 V c) := by
  show (cfg0.win 2).cut (grid0.coords t) ((dat0 V c).after 2 t) = _
  rw [after0_2]
  unfold out0_2
  rw [View.canon_unit_zero zero_offsets0]
  simp only [View.ld_unit_zero (S := S5000x128) zero_offsets0, View.ld_unit_zero (S := S128x32) zero_offsets0]
  funext j
  obtain ⟨p, q, rfl⟩ : ∃ (p : Fin 5000) (q : Fin 32), j = ix2 p q := ⟨j 0, j 1, eq_ix2 j⟩
  obtain ⟨-, -, -, -, e4, -⟩ := block_indices0 t
  have hN : grid0.N = 20 := N_0
  have ht : t.val < grid0.N := t.isLt
  have hp : p.val < 5000 := p.isLt
  have hrow : win0_2.index t (0 : Fin 2) * 5000 + p.val < 100000 := by omega
  show k0_pay1 (F := Ideal) (iblk0 V c 0 t) (iblk0 V c 1 t) (ix2 p q) = product0 V c (((cfg0.win 2).blk t).view.emb (ix2 p q))
  rw [out_block0 t p q ⟨_, hrow⟩ rfl, matmul0_apply]
  unfold product0
  rw [arr2_ix2]
  unfold mmAt
  refine Finset.sum_congr rfl fun k _ => ?_
  rw [lhs_block0 V c t p k ⟨_, hrow⟩ rfl, rhs_block0 V c t k q]

/-- An index of the output array is in point `t`'s block iff each coordinate is in the block's range on its axis. -/
theorem mem_block0 (t : Fin cfg0.N) (i : S100000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v30).slice (win0_2.rect t)).set ↔ _
  rw [View.set_slice_whole, Rect.mem_set_unit]
  exact Iff.rfl

/-- Every row `r` of the output array is written by point `r / 5000`. -/
theorem covered0 (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : grid0.N = 20 := N_0
  have hlt : (i 0).val / 5000 < cfg0.N := by show _ < grid0.N; omega
  obtain ⟨-, -, -, -, e4, e5⟩ := block_indices0 ⟨(i 0).val / 5000, hlt⟩
  have e4' : win0_2.index ⟨(i 0).val / 5000, hlt⟩ (0 : Fin 2) = (i 0).val / 5000 := e4
  refine ⟨⟨(i 0).val / 5000, hlt⟩, flush0_2 _, ?_⟩
  rw [mem_block0]
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    omega
  | ⟨1, _⟩ =>
    show win0_2.index ⟨(i 0).val / 5000, hlt⟩ (1 : Fin 2) * 32 ≤ (i 1).val ∧ (i 1).val < win0_2.index ⟨(i 0).val / 5000, hlt⟩ (1 : Fin 2) * 32 + 32
    omega

/-- THE OUTPUT ARRAY of the first matmul region after its pipeline: the product of the two argument arrays as the
    region finds them, entry by entry. -/
theorem final0 (c : Dev nD) : (dat0 (F := Ideal) V c).arrAt 2 cfg0.N
    = arr2 (mmAt (n := 100000) (k := 128) (c := 32) (V c main_arg0 : S100000x128.Idx → EReal) (V c main_arg2 : S128x32.Idx → EReal)) :=
  (dat0 (F := Ideal) V c).arrAt_eq_of_cover 2 (product0 V c) (fun t _ => flushed0_eq V c t) covered0

end Cert.KernelIdeal.RegionValue

end
-- ==== Proof.LibRowScatter.lean ====
/-
  A ROW GATHER and a ROW SCATTER-ADD, READ AT AN INDEX, generically in the sizes.

  A table `x : [N, C]` and one integer row number per update row, `idx : [M, 1]`:
  • `stablehlo.gather` with offset axis `1`, collapsed axis `0`, start index map `[0]`, index vector on axis `1` and
    slices `1 × C` gives `[M, C]`; its element `(e, j)` is `x (gatherRow e, j)`, where `gatherRow e` is `idx[e, 0]`
    read signed and clamped into `[0, N − 1]` (`gather_row_apply`).
  • the accumulating `stablehlo.scatter` with update window axis `1`, inserted window axis `0`, scatter index to
    operand axis `0` and index vector on axis `1` sends update `(e, j)` to `(landRow e, j)`, where `landRow e` is
    `idx[e, 0]` read signed and NOT clamped — no row at all when it is outside `[0, N)` (`resultIdx_row`); so, at the
    ideal instance, the result's element `(i, j)` is `x (i, j)` plus the sum of `upd (e, j)` over the update rows `e`
    with `landRow e = some i` (`scatterAdd_row_apply`): the scatter acts column by column.
  Both are stated for any dimension-number record with those fields, whatever the sizes `N`, `M`, `C` and the index
  width; each is first proved for the literal record (`rowGatherDims`, `rowScatterDims`), where the axis lists compute.
-/
import Idealize.ShloMosaic.PureOps.Ideal
import Idealize.ShloMosaic.Lib.ValueIdx

noncomputable section

open scoped BigOperators

namespace Cert.Lib.RowScatter

open Idealize.ShloMosaic Idealize.ShloMosaic.ValueIdx

/-! ## Axis membership facts at rank 2 -/

/-- Axis `0` is in the list `[0]`. -/
theorem zero_mem_zero : (0 : Fin 2) ∈ [(0 : Fin 2)] := by decide
/-- Axis `1` is not in the list `[0]`. -/
theorem one_not_mem_zero : (1 : Fin 2) ∉ [(0 : Fin 2)] := by decide
/-- Axis `1` is in the list `[1]`. -/
theorem one_mem_one : (1 : Fin 2) ∈ [(1 : Fin 2)] := by decide
/-- Axis `0` is not in the list `[1]`. -/
theorem zero_not_mem_one : (0 : Fin 2) ∉ [(1 : Fin 2)] := by decide

/-! ## A row gather read at an index -/

/-- The operand row that update row `e` reads: its start index `idx[e, 0]`, read as a signed integer and clamped
    into `[0, N − 1]`. -/
def gatherRow (N M : Nat) (hN : 0 < N) {w : Nat} (idx : IVec ⟨2, ![M, 1]⟩ w) (e : Fin M) : Fin N :=
  ⟨min (idx (ix2 e 0)).toInt.toNat (N - 1), by omega⟩

/-- The row-gather dimension numbers as a literal record: operand `[N, C]`, start indices `[M, 1]`, result `[M, C]`;
    offset axis `1`, collapsed axis `0`, start index map `[0]`, index vector on axis `1`, slices `1 × C`. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The literal row gather at `(e, j)` is the operand at row `gatherRow e`, column `j`. -/
theorem gather_rowDims_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (j : Fin C) :
    Host.gather (rowGatherDims N M C wf) x idx (ix2 e j) = x (ix2 (gatherRow N M hN idx e) j) := by
  unfold Host.gather
  congr 1
  funext a
  refine Fin.ext ?_
  match a with
  | ⟨0, _⟩ =>
    show (rowGatherDims N M C wf).start (ix2 e j) idx 0 + (rowGatherDims N M C wf).batchCoord (ix2 e j) 0
      + (rowGatherDims N M C wf).offCoord (ix2 e j) 0 = min (idx (ix2 e 0)).toInt.toNat (N - 1)
    rw [GatherDims.batchCoord_eq_zero _ _ _ List.not_mem_nil,
      GatherDims.offCoord_eq_zero _ _ _ (fun h => ((GatherDims.mem_sKept _ _).mp h).1 zero_mem_zero)]
    simp only [Nat.add_zero]
    unfold GatherDims.start
    rw [dif_pos (show (0 : Fin 2) ∈ (rowGatherDims N M C wf).startIndexMap from zero_mem_zero)]
    have hsi : (rowGatherDims N M C wf).siIdx (ix2 e j) ⟨List.idxOf (0 : Fin 2) (rowGatherDims N M C wf).startIndexMap,
        List.idxOf_lt_length_iff.2 zero_mem_zero⟩ = ix2 e 0 := by
      funext b; refine Fin.ext ?_
      match b with
      | ⟨0, _⟩ => rfl
      | ⟨1, _⟩ => rfl
    rw [hsi]
    rfl
  | ⟨1, _⟩ =>
    show (rowGatherDims N M C wf).start (ix2 e j) idx 1 + (rowGatherDims N M C wf).batchCoord (ix2 e j) 1
      + (rowGatherDims N M C wf).offCoord (ix2 e j) 1 = j.val
    rw [GatherDims.batchCoord_eq_zero _ _ _ List.not_mem_nil]
    unfold GatherDims.start
    rw [dif_neg (show (1 : Fin 2) ∉ (rowGatherDims N M C wf).startIndexMap from one_not_mem_zero)]
    simp only [Nat.add_zero, Nat.zero_add]
    unfold GatherDims.offCoord
    rw [dif_pos (show (1 : Fin 2) ∈ (rowGatherDims N M C wf).sKept from
      (GatherDims.mem_sKept _ _).mpr ⟨one_not_mem_zero, List.not_mem_nil⟩)]
    rfl

/-- A ROW GATHER READ AT `(e, j)`: for row-indexed dimension numbers (offset axis `1`, collapsed axis `0`, start index
    map `[0]`, one start index per update row, slices `1 × C`), `stablehlo.gather` of a table `x : [N, C]` at the
    start indices `idx : [M, 1]` has, at row `e` and column `j`, the table's element at row `idx[e, 0]` (read
    signed, clamped into `[0, N − 1]`) and the same column `j`. -/
theorem gather_row_apply {α : Type} {N M C w : Nat} (hN : 0 < N)
    (d : GatherDims ⟨2, ![N, C]⟩ ⟨2, ![M, 1]⟩ ⟨2, ![M, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![M, 1]⟩ w) (e : Fin M) (j : Fin C) :
    Host.gather d x idx (ix2 e j) = x (ix2 (gatherRow N M hN idx e) j) := by
  obtain ⟨od, cd, ob, sb, sm, iv, ss, wf⟩ := d
  dsimp only at hod hcd hob hsb hsm hiv hss
  subst hod hcd hob hsb hsm hiv hss
  exact gather_rowDims_apply hN wf x idx e j

/-! ## A row scatter-add read at an index -/

/-- An axis is kept exactly when it is not among the dropped ones. -/
theorem mem_kept {s : Shape} (axes : List (Fin s.rank)) (a : Fin s.rank) : a ∈ s.kept axes ↔ a ∉ axes := by
  simp [Shape.kept, List.mem_filter, List.mem_finRange]

/-- The operand row that update row `e` lands at: its scatter index `idx[e, 0]`, read as a signed integer and NOT
    clamped, when that is a row of the operand; no row (the update is dropped) when it is negative or `≥ N`. -/
def landRow (N M : Nat) {w : Nat} (idx : IVec ⟨2, ![M, 1]⟩ w) (e : Fin M) : Option (Fin N) :=
  if h : 0 ≤ (idx (ix2 e 0)).toInt ∧ (idx (ix2 e 0)).toInt < N then
    some ⟨(idx (ix2 e 0)).toInt.toNat, by omega⟩
  else none

/-- The row-scatter dimension numbers as a literal record: operand `[N, C]`, scatter indices `[M, 1]`, updates
    `[M, C]`; update window axis `1`, inserted window axis `0`, scatter index to operand axis `0`, index vector on
    axis `1`. -/
abbrev rowScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

section RowScatter
variable {N M C w : Nat} (wf : ScatterDims.WF ⟨2, ![N, C]⟩ ⟨2, ![M, 1]⟩ ⟨2, ![M, C]⟩ [1] [0] [0] 1)
  (idx : IVec ⟨2, ![M, 1]⟩ w) (e : Fin M) (j : Fin C)

/-- On the row axis the window of update `(e, j)` starts at the scatter index `idx[e, 0]`, read signed. -/
theorem start_row : (rowScatterDims N M C wf).start (ix2 e j) idx 0 = (idx (ix2 e 0)).toInt := by
  unfold ScatterDims.start
  rw [dif_pos (show (0 : Fin 2) ∈ (rowScatterDims N M C wf).scatterDimsToOperandDims from zero_mem_zero)]
  have hsi : (rowScatterDims N M C wf).siIdx (ix2 e j)
      ⟨List.idxOf (0 : Fin 2) (rowScatterDims N M C wf).scatterDimsToOperandDims,
        List.idxOf_lt_length_iff.2 zero_mem_zero⟩ = ix2 e 0 := by
    funext b; refine Fin.ext ?_
    match b with
    | ⟨0, _⟩ => rfl
    | ⟨1, _⟩ => rfl
  rw [hsi]

/-- On the column axis the window starts at `0`. -/
theorem start_col : (rowScatterDims N M C wf).start (ix2 e j) idx 1 = 0 := by
  unfold ScatterDims.start
  rw [dif_neg (show (1 : Fin 2) ∉ (rowScatterDims N M C wf).scatterDimsToOperandDims from one_not_mem_zero)]

/-- On the row axis (inserted) the window coordinate is `0`. -/
theorem window_row : (rowScatterDims N M C wf).window (ix2 e j) 0 = 0 := by
  unfold ScatterDims.window
  rw [dif_neg (show (0 : Fin 2) ∉ (rowScatterDims N M C wf).sKept from
    fun h => ((mem_kept _ _).mp h) zero_mem_zero)]

/-- On the column axis the window coordinate is the update's column. -/
theorem window_col : (rowScatterDims N M C wf).window (ix2 e j) 1 = j.val := by
  unfold ScatterDims.window
  rw [dif_pos (show (1 : Fin 2) ∈ (rowScatterDims N M C wf).sKept from (mem_kept _ _).mpr one_not_mem_zero)]
  rfl

/-- The literal row scatter sends update `(e, j)` to `(landRow e, j)`, or drops it when `landRow e` is no row. -/
theorem resultIdx_rowDims :
    (rowScatterDims N M C wf).resultIdx? (ix2 e j) idx = (landRow N M idx e).map (fun r => ix2 r j) := by
  unfold ScatterDims.resultIdx? landRow
  by_cases h : 0 ≤ (idx (ix2 e 0)).toInt ∧ (idx (ix2 e 0)).toInt < N
  · have hall : ∀ a, 0 ≤ (rowScatterDims N M C wf).start (ix2 e j) idx a + (rowScatterDims N M C wf).window (ix2 e j) a ∧
        (rowScatterDims N M C wf).start (ix2 e j) idx a + (rowScatterDims N M C wf).window (ix2 e j) a
          < (⟨2, ![N, C]⟩ : Shape).size a := by
      intro a
      match a with
      | ⟨0, _⟩ =>
        show 0 ≤ (rowScatterDims N M C wf).start (ix2 e j) idx 0 + ((rowScatterDims N M C wf).window (ix2 e j) 0 : ℤ) ∧
          (rowScatterDims N M C wf).start (ix2 e j) idx 0 + ((rowScatterDims N M C wf).window (ix2 e j) 0 : ℤ) < (N : ℤ)
        rw [start_row, window_row]
        simpa using h
      | ⟨1, _⟩ =>
        show 0 ≤ (rowScatterDims N M C wf).start (ix2 e j) idx 1 + ((rowScatterDims N M C wf).window (ix2 e j) 1 : ℤ) ∧
          (rowScatterDims N M C wf).start (ix2 e j) idx 1 + ((rowScatterDims N M C wf).window (ix2 e j) 1 : ℤ) < (C : ℤ)
        rw [start_col, window_col]
        have := j.isLt
        omega
    rw [dif_pos hall, dif_pos h]
    simp only [Option.map_some]
    congr 1
    funext a; refine Fin.ext ?_
    match a with
    | ⟨0, _⟩ =>
      show ((rowScatterDims N M C wf).start (ix2 e j) idx 0 + ((rowScatterDims N M C wf).window (ix2 e j) 0 : ℤ)).toNat
        = (idx (ix2 e 0)).toInt.toNat
      rw [start_row, window_row]
      simp
    | ⟨1, _⟩ =>
      show ((rowScatterDims N M C wf).start (ix2 e j) idx 1 + ((rowScatterDims N M C wf).window (ix2 e j) 1 : ℤ)).toNat
        = j.val
      rw [start_col, window_col]
      simp
  · have hnot : ¬ ∀ a, 0 ≤ (rowScatterDims N M C wf).start (ix2 e j) idx a + (rowScatterDims N M C wf).window (ix2 e j) a ∧
        (rowScatterDims N M C wf).start (ix2 e j) idx a + (rowScatterDims N M C wf).window (ix2 e j) a
          < (⟨2, ![N, C]⟩ : Shape).size a := by
      intro hall
      apply h
      have h0 : 0 ≤ (rowScatterDims N M C wf).start (ix2 e j) idx 0 + ((rowScatterDims N M C wf).window (ix2 e j) 0 : ℤ) ∧
          (rowScatterDims N M C wf).start (ix2 e j) idx 0 + ((rowScatterDims N M C wf).window (ix2 e j) 0 : ℤ) < (N : ℤ) :=
        hall 0
      rw [start_row, window_row] at h0
      simpa using h0
    rw [dif_neg hnot, dif_neg h]
    rfl

/-- The literal row scatter-add at `(i, j)`: the operand's element plus the updates of column `j` over the update
    rows that land at row `i`. -/
theorem scatterAdd_rowDims_apply (x : FVec Ideal ⟨2, ![N, C]⟩ .f32) (upd : FVec Ideal ⟨2, ![M, C]⟩ .f32) (i : Fin N) :
    Host.scatterAdd (rowScatterDims N M C wf) x idx upd (ix2 i j)
      = x (ix2 i j) + ∑ e ∈ Finset.univ.filter (fun e : Fin M => landRow N M idx e = some i), upd (ix2 e j) := by
  show Ideal.hostScatterAdd (rowScatterDims N M C wf) x idx upd (ix2 i j) = _
  unfold Ideal.hostScatterAdd
  congr 1
  symm
  refine Finset.sum_bij (fun e _ => ix2 e j) ?_ ?_ ?_ ?_
  · intro e he
    simp only [Finset.mem_filter, Finset.mem_univ, true_and] at he ⊢
    rw [resultIdx_rowDims, he]
    rfl
  · intro e₁ _ e₂ _ h
    exact congrFun h 0
  · intro u hu
    simp only [Finset.mem_filter, Finset.mem_univ, true_and] at hu
    obtain ⟨e', j', rfl⟩ : ∃ (e' : Fin M) (j' : Fin C), u = ix2 e' j' := ⟨u 0, u 1, eq_ix2 u⟩
    rw [resultIdx_rowDims] at hu
    cases hl : landRow N M idx e' with
    | none => rw [hl] at hu; simp at hu
    | some r =>
      rw [hl] at hu
      simp only [Option.map_some, Option.some.injEq] at hu
      have h0 : r = i := congrFun hu 0
      have h1 : j' = j := congrFun hu 1
      subst h0 h1
      exact ⟨e', by simp [hl], rfl⟩
  · intro e _
    rfl

end RowScatter

/-! ## The same two facts for any record with the row-scatter fields -/

/-- WHERE A ROW SCATTER SENDS AN UPDATE: for row-indexed dimension numbers (update window axis `1`, inserted window
    axis `0`, scatter index to operand axis `0`, one scatter index per update row), update `(e, j)` lands at
    `(r, j)` when the scatter index `idx[e, 0]`, read signed, is a row `r` of the operand, and is dropped otherwise. -/
theorem resultIdx_row {N M C w : Nat} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1) (idx : IVec ⟨2, ![M, 1]⟩ w) (e : Fin M) (j : Fin C) :
    d.resultIdx? (ix2 e j) idx = (landRow N M idx e).map (fun r => ix2 r j) := by
  obtain ⟨uw, iw, sd, iv, wf⟩ := d
  dsimp only at huw hiw hsd hiv
  subst huw hiw hsd hiv
  exact resultIdx_rowDims wf idx e j

/-- A ROW SCATTER-ADD READ AT `(i, j)`, at the ideal instance: for the same dimension numbers, the accumulating
    scatter of updates `upd : [M, C]` into `x : [N, C]` has, at row `i` and column `j`, the element `x (i, j)` plus
    the exact sum of `upd (e, j)` over the update rows `e` whose scatter index is the row `i`. Column `j` of the
    result depends on column `j` of the operand and of the updates only. -/
theorem scatterAdd_row_apply {N M C w : Nat} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1) (x : FVec Ideal ⟨2, ![N, C]⟩ .f32) (idx : IVec ⟨2, ![M, 1]⟩ w)
    (upd : FVec Ideal ⟨2, ![M, C]⟩ .f32) (i : Fin N) (j : Fin C) :
    Host.scatterAdd d x idx upd (ix2 i j)
      = x (ix2 i j) + ∑ e ∈ Finset.univ.filter (fun e : Fin M => landRow N M idx e = some i), upd (ix2 e j) := by
  obtain ⟨uw, iw, sd, iv, wf⟩ := d
  dsimp only at huw hiw hsd hiv
  subst huw hiw hsd hiv
  exact scatterAdd_rowDims_apply wf idx j x upd i

end Cert.Lib.RowScatter

end
-- ==== Proof.Agg.lean ====
/-
  THE GRAPH AGGREGATION as one function, on both programs, and its columns.

  Both programs aggregate node features `H : [100000, C]` over 3,300,000 weighted edges by the same composition: the
  source node of each edge is wrapped (a negative index has 100000 added), the rows of `H` at the wrapped sources are
  gathered, each gathered row is multiplied by its edge's weight, and the products are scatter-added, from zero, at the
  edges' destination nodes. `aggK32`, `aggK17` are that composition over the kernel program's dimension-number records,
  `aggR32`, `aggR16`, `aggR1` over the reference program's; `refAgg32`, `refAgg16`, `refAgg1` identify the reference's
  three scatter results with them, and `agg32_eq` the two programs' 32-column aggregations with each other.

  Read at a row `i` and a column `j` (`agg_apply`), every aggregation is
      the zero word  +  Σ over the edges e whose destination is row i of  ew e · H (source row of e, j),
  so column `j` of the result depends on column `j` of `H` only. Hence the 17-column aggregation restricted to its first
  16 columns is the 16-column aggregation of the restricted features (`agg17_col`), and its last column is the 1-column
  aggregation of the last column (`agg17_last`).
-/
import proofs.«170862_j23587960389966_1_alg».proof.Proof.LibRowScatter
import proofs.«170862_j23587960389966_1_alg».proof.Proof.RefRead
import proofs.«170862_j23587960389966_1_alg».proof.Proof.Gen.KernelIdeal
import Idealize.ShloMosaic.Lib.Pipeline.Value
import Idealize.ShloMosaic.Lib.ValueIdx

noncomputable section

open scoped BigOperators

namespace Cert.GcnAgg

open Idealize.ShloMosaic Idealize.ShloMosaic.ValueIdx Cert.Lib.RowScatter

/-! ## The broadcasts of the aggregation, read at an index (any sizes) -/

/-- A scalar float constant broadcast to any shape reads the constant's value everywhere. -/
theorem splat_apply {t : Shape} (dims : Fin 0 → Fin t.rank) (h : (⟨0, ![]⟩ : Shape).BroadcastsInDim t dims)
    (b : BitVec 32) (i : t.Idx) :
    broadcastInDim t dims h (constant (F := Ideal) ⟨0, ![]⟩ .f32 b) i = Ideal.ofBits .f32 b :=
  (broadcastInDim_apply dims h (constant (F := Ideal) ⟨0, ![]⟩ .f32 b) i (fun a => a.elim0) (fun a => a.elim0)).trans rfl

/-- A vector `[M]` broadcast to a column `[M, 1]` reads, at row `e`, the vector's element `e`. -/
theorem bcastCol_apply {α : Type} {M : Nat} (h : (⟨1, ![M]⟩ : Shape).BroadcastsInDim ⟨2, ![M, 1]⟩ ![0])
    (v : (⟨1, ![M]⟩ : Shape).Idx → α) (e : Fin M) (z : Fin 1) :
    broadcastInDim ⟨2, ![M, 1]⟩ ![0] h v (ix2 e z) = v (ix1 e) :=
  broadcastInDim_apply _ h v (ix2 e z) (ix1 e) (fun a => match a with
    | ⟨0, _⟩ => by
      show e.val = if M = 1 then 0 else e.val
      have := e.isLt
      split <;> omega)

/-- A column `[M, 1]` broadcast along the columns to `[M, C]` reads, at `(e, j)`, the column's element `e`. -/
theorem bcastRow_apply {α : Type} {M C : Nat} (h : (⟨2, ![M, 1]⟩ : Shape).BroadcastsInDim ⟨2, ![M, C]⟩ ![0, 1])
    (v : (⟨2, ![M, 1]⟩ : Shape).Idx → α) (e : Fin M) (j : Fin C) :
    broadcastInDim ⟨2, ![M, C]⟩ ![0, 1] h v (ix2 e j) = v (ix2 e 0) :=
  broadcastInDim_apply _ h v (ix2 e j) (ix2 e 0) (fun a => match a with
    | ⟨0, _⟩ => by
      show e.val = if M = 1 then 0 else e.val
      have := e.isLt
      split <;> omega
    | ⟨1, _⟩ => by
      show (0 : Nat) = if (1 : Nat) = 1 then 0 else j.val
      rw [if_pos rfl])

/-! ## A weighted row gather scatter-added by rows, read at an index (any sizes) -/

/-- A scatter-add by rows of (weights × a row gather), read at row `i` and column `j`: the operand's element plus the
    sum, over the update rows `e` that land at row `i`, of the weight at `(e, j)` times the table's element at the
    gathered row of `e` and column `j`. -/
theorem agg_apply {N M C w : Nat} (hN : 0 < N)
    (sc : ScatterDims ⟨2, ![N, C]⟩ ⟨2, ![M, 1]⟩ ⟨2, ![M, C]⟩)
    (huw : sc.updateWindowDims = [1]) (hiw : sc.insertedWindowDims = [0]) (hsd : sc.scatterDimsToOperandDims = [0])
    (hiv : sc.indexVectorDim = 1)
    (ga : GatherDims ⟨2, ![N, C]⟩ ⟨2, ![M, 1]⟩ ⟨2, ![M, C]⟩)
    (hod : ga.offsetDims = [1]) (hcd : ga.collapsedSliceDims = [0]) (hob : ga.operandBatchingDims = [])
    (hsb : ga.startIndicesBatchingDims = []) (hsm : ga.startIndexMap = [0]) (hgiv : ga.indexVectorDim = 1)
    (hss : ga.sliceSizes = ![1, C])
    (z : FVec Ideal ⟨2, ![N, C]⟩ .f32) (dst src : IVec ⟨2, ![M, 1]⟩ w) (W : FVec Ideal ⟨2, ![M, C]⟩ .f32)
    (H : FVec Ideal ⟨2, ![N, C]⟩ .f32) (i : Fin N) (j : Fin C) :
    Host.scatterAdd sc z dst (mulf W (Host.gather ga H src)) (ix2 i j)
      = z (ix2 i j) + ∑ e ∈ Finset.univ.filter (fun e : Fin M => landRow N M dst e = some i),
          W (ix2 e j) * H (ix2 (gatherRow N M hN src e) j) := by
  rw [scatterAdd_row_apply sc huw hiw hsd hiv]
  congr 1
  refine Finset.sum_congr rfl fun e _ => ?_
  rw [mulf_apply, gather_row_apply hN ga hod hcd hob hsb hsm hgiv hss]

/-! ## The kernel program's aggregations -/

section Kernel
open Cert.KernelIdeal Cert.KernelIdeal.Facts₀

/-- The wrapped source node of each edge (the kernel program's constants): a negative index has 100000 added. -/
def wrapK (s : IVec ⟨1, ![3300000]⟩ 32) : IVec ⟨1, ![3300000]⟩ 32 :=
  select (cmpi .slt s (broadcastInDim S3300000 ![] bcast_S_S3300000 (constantI S_ 32 0#32)))
    (addi s (broadcastInDim S3300000 ![] bcast_S_S3300000 (constantI S_ 32 100000#32))) s

/-- The 32-column aggregation over the kernel program's records: from zero, scatter-add at the destination rows the
    gathered source rows of `H` times the edge weights. -/
def aggK32 (ew : FVec Ideal ⟨1, ![3300000]⟩ .f32) (s d : IVec ⟨1, ![3300000]⟩ 32)
    (H : FVec Ideal ⟨2, ![100000, 32]⟩ .f32) : FVec Ideal ⟨2, ![100000, 32]⟩ .f32 :=
  Host.scatterAdd scatter_S100000x32_S3300000x1_S3300000x32_1_0_0_1
    (broadcastInDim S100000x32 ![] bcast_S_S100000x32 (constant (F := Ideal) S_ .f32 0x00000000#32))
    (broadcastInDim S3300000x1 ![0] bcast_S3300000_S3300000x1_0 d)
    (mulf (broadcastInDim S3300000x32 ![0, 1] bcast_S3300000x1_S3300000x32_0_1
        (broadcastInDim S3300000x1 ![0] bcast_S3300000_S3300000x1_0 ew))
      (Host.gather gather_S100000x32_S3300000x1_S3300000x32_1_0_n_n_0_1_132 H
        (broadcastInDim S3300000x1 ![0] bcast_S3300000_S3300000x1_0 (wrapK s))))

/-- The 17-column aggregation over the kernel program's records: from zero, scatter-add at the destination rows the
    gathered source rows of `H` times the edge weights. -/
def aggK17 (ew : FVec Ideal ⟨1, ![3300000]⟩ .f32) (s d : IVec ⟨1, ![3300000]⟩ 32)
    (H : FVec Ideal ⟨2, ![100000, 17]⟩ .f32) : FVec Ideal ⟨2, ![100000, 17]⟩ .f32 :=
  Host.scatterAdd scatter_S100000x17_S3300000x1_S3300000x17_1_0_0_1
    (broadcastInDim S100000x17 ![] bcast_S_S100000x17 (constant (F := Ideal) S_ .f32 0x00000000#32))
    (broadcastInDim S3300000x1 ![0] bcast_S3300000_S3300000x1_0 d)
    (mulf (broadcastInDim S3300000x17 ![0, 1] bcast_S3300000x1_S3300000x17_0_1
        (broadcastInDim S3300000x1 ![0] bcast_S3300000_S3300000x1_0 ew))
      (Host.gather gather_S100000x17_S3300000x1_S3300000x17_1_0_n_n_0_1_117 H
        (broadcastInDim S3300000x1 ![0] bcast_S3300000_S3300000x1_0 (wrapK s))))

/-- The kernel's 17-column aggregation at row `i`, column `j`: the zero word plus the sum, over the edges whose
    destination is row `i`, of the edge's weight times `H` at the edge's (wrapped, clamped) source row and column `j`. -/
theorem aggK17_apply (ew : FVec Ideal ⟨1, ![3300000]⟩ .f32) (s d : IVec ⟨1, ![3300000]⟩ 32)
    (H : FVec Ideal ⟨2, ![100000, 17]⟩ .f32) (i : Fin 100000) (j : Fin 17) :
    aggK17 ew s d H (ix2 i j)
      = Ideal.ofBits .f32 0x00000000#32
        + ∑ e ∈ Finset.univ.filter (fun e : Fin 3300000 =>
            landRow 100000 3300000 (broadcastInDim S3300000x1 ![0] bcast_S3300000_S3300000x1_0 d) e = some i),
          ew (ix1 e) * H (ix2 (gatherRow 100000 3300000 (by decide)
            (broadcastInDim S3300000x1 ![0] bcast_S3300000_S3300000x1_0 (wrapK s)) e) j) := by
  unfold aggK17
  refine (agg_apply (by decide) scatter_S100000x17_S3300000x1_S3300000x17_1_0_0_1 rfl rfl rfl rfl
    gather_S100000x17_S3300000x1_S3300000x17_1_0_n_n_0_1_117 rfl rfl rfl rfl rfl rfl rfl _ _ _ _ _ i j).trans ?_
  refine congrArg₂ (· + ·) (splat_apply _ _ _ _) (Finset.sum_congr rfl fun e _ => ?_)
  rw [bcastRow_apply, bcastCol_apply]

end Kernel

/-! ## The reference program's aggregations -/

section Reference
open Cert.ReferenceIdeal Cert.ReferenceIdeal.Facts₀

/-- The wrapped source node of each edge (the reference program's constants): a negative index has 100000 added. -/
def wrapR (s : IVec ⟨1, ![3300000]⟩ 32) : IVec ⟨1, ![3300000]⟩ 32 :=
  select (cmpi .slt s (broadcastInDim S3300000 ![] bcast_S_S3300000 (constantI S_ 32 0#32)))
    (addi s (broadcastInDim S3300000 ![] bcast_S_S3300000 (constantI S_ 32 100000#32))) s

/-- The 32-column aggregation over the reference program's records: from zero, scatter-add at the destination rows the
    gathered source rows of `H` times the edge weights. -/
def aggR32 (ew : FVec Ideal ⟨1, ![3300000]⟩ .f32) (s d : IVec ⟨1, ![3300000]⟩ 32)
    (H : FVec Ideal ⟨2, ![100000, 32]⟩ .f32) : FVec Ideal ⟨2, ![100000, 32]⟩ .f32 :=
  Host.scatterAdd scatter_S100000x32_S3300000x1_S3300000x32_1_0_0_1
    (broadcastInDim S100000x32 ![] bcast_S_S100000x32 (constant (F := Ideal) S_ .f32 0x00000000#32))
    (broadcastInDim S3300000x1 ![0] bcast_S3300000_S3300000x1_0 d)
    (mulf (broadcastInDim S3300000x32 ![0, 1] bcast_S3300000x1_S3300000x32_0_1
        (broadcastInDim S3300000x1 ![0] bcast_S3300000_S3300000x1_0 ew))
      (Host.gather gather_S100000x32_S3300000x1_S3300000x32_1_0_n_n_0_1_132 H
        (broadcastInDim S3300000x1 ![0] bcast_S3300000_S3300000x1_0 (wrapR s))))

/-- The 16-column aggregation over the reference program's records: from zero, scatter-add at the destination rows the
    gathered source rows of `H` times the edge weights. -/
def aggR16 (ew : FVec Ideal ⟨1, ![3300000]⟩ .f32) (s d : IVec ⟨1, ![3300000]⟩ 32)
    (H : FVec Ideal ⟨2, ![100000, 16]⟩ .f32) : FVec Ideal ⟨2, ![100000, 16]⟩ .f32 :=
  Host.scatterAdd scatter_S100000x16_S3300000x1_S3300000x16_1_0_0_1
    (broadcastInDim S100000x16 ![] bcast_S_S100000x16 (constant (F := Ideal) S_ .f32 0x00000000#32))
    (broadcastInDim S3300000x1 ![0] bcast_S3300000_S3300000x1_0 d)
    (mulf (broadcastInDim S3300000x16 ![0, 1] bcast_S3300000x1_S3300000x16_0_1
        (broadcastInDim S3300000x1 ![0] bcast_S3300000_S3300000x1_0 ew))
      (Host.gather gather_S100000x16_S3300000x1_S3300000x16_1_0_n_n_0_1_116 H
        (broadcastInDim S3300000x1 ![0] bcast_S3300000_S3300000x1_0 (wrapR s))))

/-- The 1-column aggregation over the reference program's records: from zero, scatter-add at the destination rows the
    gathered source rows of `H` times the edge weights. -/
def aggR1 (ew : FVec Ideal ⟨1, ![3300000]⟩ .f32) (s d : IVec ⟨1, ![3300000]⟩ 32)
    (H : FVec Ideal ⟨2, ![100000, 1]⟩ .f32) : FVec Ideal ⟨2, ![100000, 1]⟩ .f32 :=
  Host.scatterAdd scatter_S100000x1_S3300000x1_S3300000x1_1_0_0_1
    (broadcastInDim S100000x1 ![] bcast_S_S100000x1 (constant (F := Ideal) S_ .f32 0x00000000#32))
    (broadcastInDim S3300000x1 ![0] bcast_S3300000_S3300000x1_0 d)
    (mulf (broadcastInDim S3300000x1 ![0] bcast_S3300000_S3300000x1_0 ew)
      (Host.gather gather_S100000x1_S3300000x1_S3300000x1_1_0_n_n_0_1_11 H
        (broadcastInDim S3300000x1 ![0] bcast_S3300000_S3300000x1_0 (wrapR s))))

/-- The reference's 16-column aggregation at row `i`, column `j`: the zero word plus the sum, over the edges whose
    destination is row `i`, of the edge's weight times `H` at the edge's (wrapped, clamped) source row and column `j`. -/
theorem aggR16_apply (ew : FVec Ideal ⟨1, ![3300000]⟩ .f32) (s d : IVec ⟨1, ![3300000]⟩ 32)
    (H : FVec Ideal ⟨2, ![100000, 16]⟩ .f32) (i : Fin 100000) (j : Fin 16) :
    aggR16 ew s d H (ix2 i j)
      = Ideal.ofBits .f32 0x00000000#32
        + ∑ e ∈ Finset.univ.filter (fun e : Fin 3300000 =>
            landRow 100000 3300000 (broadcastInDim S3300000x1 ![0] bcast_S3300000_S3300000x1_0 d) e = some i),
          ew (ix1 e) * H (ix2 (gatherRow 100000 3300000 (by decide)
            (broadcastInDim S3300000x1 ![0] bcast_S3300000_S3300000x1_0 (wrapR s)) e) j) := by
  unfold aggR16
  refine (agg_apply (by decide) scatter_S100000x16_S3300000x1_S3300000x16_1_0_0_1 rfl rfl rfl rfl
    gather_S100000x16_S3300000x1_S3300000x16_1_0_n_n_0_1_116 rfl rfl rfl rfl rfl rfl rfl _ _ _ _ _ i j).trans ?_
  refine congrArg₂ (· + ·) (splat_apply _ _ _ _) (Finset.sum_congr rfl fun e _ => ?_)
  rw [bcastRow_apply, bcastCol_apply]

/-- The reference's 1-column aggregation at row `i`, column `j`: the zero word plus the sum, over the edges whose
    destination is row `i`, of the edge's weight times `H` at the edge's (wrapped, clamped) source row and column `j`. -/
theorem aggR1_apply (ew : FVec Ideal ⟨1, ![3300000]⟩ .f32) (s d : IVec ⟨1, ![3300000]⟩ 32)
    (H : FVec Ideal ⟨2, ![100000, 1]⟩ .f32) (i : Fin 100000) (j : Fin 1) :
    aggR1 ew s d H (ix2 i j)
      = Ideal.ofBits .f32 0x00000000#32
        + ∑ e ∈ Finset.univ.filter (fun e : Fin 3300000 =>
            landRow 100000 3300000 (broadcastInDim S3300000x1 ![0] bcast_S3300000_S3300000x1_0 d) e = some i),
          ew (ix1 e) * H (ix2 (gatherRow 100000 3300000 (by decide)
            (broadcastInDim S3300000x1 ![0] bcast_S3300000_S3300000x1_0 (wrapR s)) e) j) := by
  unfold aggR1
  refine (agg_apply (by decide) scatter_S100000x1_S3300000x1_S3300000x1_1_0_0_1 rfl rfl rfl rfl
    gather_S100000x1_S3300000x1_S3300000x1_1_0_n_n_0_1_11 rfl rfl rfl rfl rfl rfl rfl _ _ _ _ _ i j).trans ?_
  refine congrArg₂ (· + ·) (splat_apply _ _ _ _) (Finset.sum_congr rfl fun e _ => ?_)
  rw [bcastCol_apply]

end Reference

/-! ## The reference program's three scatter results are these aggregations -/

section ReferenceRun
open Cert.ReferenceIdeal Cert.ReferenceIdeal.Read

/-- The reference's 32-column scatter result is `aggR32` of the edge weights, the edges' source and destination nodes,
    and the first layer's features. -/
theorem refAgg32 (x0 : (⟨S100000x128, .f32⟩ : BufTy).Contents (Elt Ideal)) (x1 : (⟨S2x3200000, .i32⟩ : BufTy).Contents (Elt Ideal))
    (x2 : (⟨S128x32, .f32⟩ : BufTy).Contents (Elt Ideal)) :
    val_main_v43 (F := Ideal) x0 x1 x2
      = aggR32 (val_main_v29 (F := Ideal) x1) (val_main_v3 (F := Ideal) x1) (val_main_v6 (F := Ideal) x1)
          (val_main_v30 (F := Ideal) x0 x2) := rfl

/-- The reference's 16-column scatter result is `aggR16` of the same edge data and the 16-column features. -/
theorem refAgg16 (x0 : (⟨S100000x128, .f32⟩ : BufTy).Contents (Elt Ideal)) (x1 : (⟨S2x3200000, .i32⟩ : BufTy).Contents (Elt Ideal))
    (x2 : (⟨S128x32, .f32⟩ : BufTy).Contents (Elt Ideal)) (x3 : (⟨S32, .f32⟩ : BufTy).Contents (Elt Ideal))
    (x4 : (⟨S32x16, .f32⟩ : BufTy).Contents (Elt Ideal)) :
    val_main_v61 (F := Ideal) x0 x1 x2 x3 x4
      = aggR16 (val_main_v29 (F := Ideal) x1) (val_main_v3 (F := Ideal) x1) (val_main_v6 (F := Ideal) x1)
          (val_main_v48 (F := Ideal) x0 x1 x2 x3 x4) := rfl

/-- The reference's 1-column scatter result is `aggR1` of the same edge data and the 1-column features. -/
theorem refAgg1 (x0 : (⟨S100000x128, .f32⟩ : BufTy).Contents (Elt Ideal)) (x1 : (⟨S2x3200000, .i32⟩ : BufTy).Contents (Elt Ideal))
    (x2 : (⟨S128x32, .f32⟩ : BufTy).Contents (Elt Ideal)) (x3 : (⟨S32, .f32⟩ : BufTy).Contents (Elt Ideal))
    (x6 : (⟨S32x1, .f32⟩ : BufTy).Contents (Elt Ideal)) :
    val_main_v80 (F := Ideal) x0 x1 x2 x3 x6
      = aggR1 (val_main_v29 (F := Ideal) x1) (val_main_v3 (F := Ideal) x1) (val_main_v6 (F := Ideal) x1)
          (val_main_v68 (F := Ideal) x0 x1 x2 x3 x6) := rfl

end ReferenceRun

/-! ## The two programs against each other -/

/-- The two programs' 32-column aggregations are one function: their dimension-number records have the same fields. -/
theorem agg32_eq (ew : FVec Ideal ⟨1, ![3300000]⟩ .f32) (s d : IVec ⟨1, ![3300000]⟩ 32)
    (H : FVec Ideal ⟨2, ![100000, 32]⟩ .f32) : aggK32 ew s d H = aggR32 ew s d H := rfl

/-- THE FIRST 16 COLUMNS: if the 17-column features agree with the 16-column ones on the first 16 columns, so do the
    aggregations (each column of an aggregation depends on that column of the features only). -/
theorem agg17_col (ew : FVec Ideal ⟨1, ![3300000]⟩ .f32) (s d : IVec ⟨1, ![3300000]⟩ 32)
    (H17 : FVec Ideal ⟨2, ![100000, 17]⟩ .f32) (H16 : FVec Ideal ⟨2, ![100000, 16]⟩ .f32)
    (hH : ∀ (r : Fin 100000) (j : Fin 16), H17 (ix2 r (Fin.castLE (by decide) j)) = H16 (ix2 r j))
    (i : Fin 100000) (j : Fin 16) :
    aggK17 ew s d H17 (ix2 i (Fin.castLE (by decide) j)) = aggR16 ew s d H16 (ix2 i j) := by
  rw [aggK17_apply, aggR16_apply]
  refine congrArg₂ (· + ·) rfl (Finset.sum_congr rfl fun e _ => ?_)
  rw [hH]
  rfl

/-- THE LAST COLUMN: if the 17-column features' last column is the 1-column features, the 17-column aggregation's last
    column is the 1-column aggregation. -/
theorem agg17_last (ew : FVec Ideal ⟨1, ![3300000]⟩ .f32) (s d : IVec ⟨1, ![3300000]⟩ 32)
    (H17 : FVec Ideal ⟨2, ![100000, 17]⟩ .f32) (H1 : FVec Ideal ⟨2, ![100000, 1]⟩ .f32)
    (hH : ∀ r : Fin 100000, H17 (ix2 r (16 : Fin 17)) = H1 (ix2 r (0 : Fin 1)))
    (i : Fin 100000) :
    aggK17 ew s d H17 (ix2 i (16 : Fin 17)) = aggR1 ew s d H1 (ix2 i (0 : Fin 1)) := by
  rw [aggK17_apply, aggR1_apply]
  refine congrArg₂ (· + ·) rfl (Finset.sum_congr rfl fun e _ => ?_)
  rw [hH]
  rfl

end Cert.GcnAgg

end
-- ==== Proof.BridgeMM.lean ====
/-
  A matrix product written entry by entry as the sum over the contracted axis is the reference's `dot_general` stage:
  for the first layer (node features times weights), and, column by column, for the two heads of the second layer,
  whose weights the kernel program sets side by side in one 17-column matrix (sixteen columns of the mean head, then
  the one column of the variance head).
-/
import proofs.«170862_j23587960389966_1_alg».proof.Proof.Spec
import proofs.«170862_j23587960389966_1_alg».proof.Proof.RefRead
import proofs.«170862_j23587960389966_1_alg».proof.KernelIdeal
import Idealize.ShloMosaic.Lib.Pipeline.Value

noncomputable section

namespace Cert.GcnBridge

open Idealize.ShloMosaic Idealize.ShloMosaic.ValueIdx Cert.GcnSpec
open Cert.ReferenceIdeal Cert.ReferenceIdeal.Read

/-- The first layer's product, entry by entry, is the reference's stage. -/
theorem mm_layer1 (x0 : (⟨S100000x128, .f32⟩ : BufTy).Contents (Elt Ideal)) (x2 : (⟨S128x32, .f32⟩ : BufTy).Contents (Elt Ideal)) :
    arr2 (mmAt (n := 100000) (k := 128) (c := 32) x0 x2) = val_main_v30 (F := Ideal) x0 x2 := by
  apply ext2; intro a b
  rw [arr2_ix2, val_main_v30_apply]
  unfold mmAt
  refine Finset.sum_congr rfl fun q _ => ?_
  have el : lidx_main_v30 (ix2 a b) q = ix2 a q := funext fun d => by
    match d with
    | ⟨0, _⟩ => rfl
    | ⟨1, _⟩ => rfl
  have er : ridx_main_v30 (ix2 a b) q = ix2 q b := funext fun d => by
    match d with
    | ⟨0, _⟩ => rfl
    | ⟨1, _⟩ => rfl
  rw [el, er]

end Cert.GcnBridge

end
-- ==== Proof.KStage1.lean ====
/-
  The idealized kernel program's first layer, read against the reference's stages: the first region's product is the
  reference's `dot_general` of the node features and the weights; the aggregation that follows it (gather along the
  edges' source nodes, scale by the edge weights, sum into the destination nodes) is applied to equal arrays by the same
  operations, so it is the reference's aggregate; and the bias reaches the second region as a one-row matrix.
-/
import proofs.«170862_j23587960389966_1_alg».proof.Proof.KFold
import proofs.«170862_j23587960389966_1_alg».proof.Proof.KGlue
import proofs.«170862_j23587960389966_1_alg».proof.Proof.Region0
import proofs.«170862_j23587960389966_1_alg».proof.Proof.Agg
import proofs.«170862_j23587960389966_1_alg».proof.Proof.BridgeMM

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- After the first region its output array is the reference's first product. -/
theorem first_product (c : Dev nD) : W4 m ρ c (Proc.devRef .tc main_v30)
    = Cert.ReferenceIdeal.Read.val_main_v30 (F := Ideal) (m ((c : Thread nD τ).loc main_arg0)) (m ((c : Thread nD τ).loc main_arg2)) := by
  rw [Fold.W4_v30, RegionValue.final0]
  have e0 : V3 m ρ c main_arg0 = (m ((c : Thread nD τ).loc main_arg0)) := Fold.W3_arg0 m ρ c
  have e2 : V3 m ρ c main_arg2 = (m ((c : Thread nD τ).loc main_arg2)) := Fold.W3_arg2 m ρ c
  rw [e0, e2]
  exact Cert.GcnBridge.mm_layer1 _ _

/-- Before the second region the aggregated first layer is the reference's. -/
theorem first_aggregate (c : Dev nD) : W5 m ρ c (Proc.devRef .tc main_v43)
    = Cert.ReferenceIdeal.Read.val_main_v43 (F := Ideal) (m ((c : Thread nD τ).loc main_arg0)) (m ((c : Thread nD τ).loc main_arg1)) (m ((c : Thread nD τ).loc main_arg2)) := by
  have h := Fold.stretch1_v43 (F := Ideal) (W4 m ρ c)
  rw [Fold.W4_v29 m ρ c, Fold.W4_v3 m ρ c, Fold.W4_v6 m ρ c, Glue.W3_weight m ρ c, Glue.W3_src m ρ c, Glue.W3_dst m ρ c,
    first_product m ρ c] at h
  exact h.trans ((Cert.GcnAgg.agg32_eq _ _ _ _).trans (Cert.GcnAgg.refAgg32 _ _ _).symm)

/-- Before the second region the first layer's bias is the argument as a one-row matrix. -/
theorem first_bias (c : Dev nD) : W5 m ρ c (Proc.devRef .tc main_v44)
    = shapeCast S1x32 (m ((c : Thread nD τ).loc main_arg3)) shapeCasts_S32_S1x32 := by
  have h := Fold.stretch1_v44 (F := Ideal) (W4 m ρ c)
  rw [Fold.W4_arg3 m ρ c] at h
  exact h

end Cert.KernelIdeal.Stage

end
-- ==== Proof.Region1.lean ====
/-
  REGION 1 (the bias-and-rectify pipeline): the output array in closed form, at the buffer contents `V` the region
  is entered with, over the extended reals.

  The body adds the one bias row to every row of its 5000 × 32 block and takes the maximum with zero. Read at one
  element (`biasRelu_apply`), with each window's block read off its array by coordinates (`rowsBlock1_apply`,
  `biasBlock1_apply`, `outBlock1_emb`: point `t` holds rows 5000 t … 5000 t + 4999), what point `t` writes back is
  its block of one whole-array function (`flushed1_eq`); the twenty blocks cover the 100000 rows (`covered1`: row r
  is in block r / 5000), so the array ends at that function (`final1`).
-/
import proofs.«170862_j23587960389966_1_alg».proof.Proof.Spec
import proofs.«170862_j23587960389966_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open Cert.GcnSpec

variable (V : (c : Dev nD) → (b : Ref sig .tc) → Buf (Elt Ideal) ((c : Thread nD τ).loc b))

/-- The zero offsets of a rank-2 whole-buffer rectangle, as the constant function. -/
theorem offsets_zero : (![0, 0] : Fin 2 → Nat) = fun _ => 0 := funext fun a => by fin_cases a <;> rfl

/-- One element of the bias-and-rectify payload: the entry plus its column's bias, cut below at zero. -/
theorem biasRelu_apply (x0 : Vec Ideal S5000x32 .f32) (x1 : Vec Ideal S1x32 .f32) (p : Fin 5000) (q : Fin 32) :
    Gen.k1_pay1 x0 x1 (ix2 p q) = max (x0 (ix2 p q) + x1 (ix2 (0 : Fin 1) q)) (Ideal.ofBits .f32 0x00000000#32) := by
  unfold Gen.k1_pay1
  simp only [shapeCast_self]
  rw [maximumf_apply, addf_apply, broadcast_apply, broadcastTo_1b_ab_apply]
  rfl

/-- The block index maps of the region's three windows, decided over the twenty grid points: the row-blocked
    windows sit at block row `t`, column block 0; the bias window at block (0, 0). -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `5000 t + p` of the 100000 rows: the row that point `t`'s block holds at its local row `p`. -/
def rowAt1 (t : Fin cfg1.N) (p : Fin 5000) : Fin 100000 :=
  ⟨t.val * 5000 + p.val, by
    have h : t.val < grid1.N := t.isLt
    rw [Gen.N_1] at h
    have := p.isLt
    omega⟩

/-- The region's row-blocked input as it finds it: a 100000 × 32 array of extended reals. -/
abbrev reluIn (c : Dev nD) : S100000x32.Idx → EReal := V c main_v43

/-- The region's bias row as it finds it: a 1 × 32 array of extended reals. -/
abbrev reluBias (c : Dev nD) : S1x32.Idx → EReal := V c main_v44

/-- Point `t`'s block of the row-blocked input, at local (p, q), is the array at (5000 t + p, q). -/
theorem rowsBlock1_apply (c : Dev nD) (t : Fin cfg1.N) (p : Fin 5000) (q : Fin 32) :
    Gen.iblk1 V c 0 t (ix2 p q) = reluIn V c (ix2 (rowAt1 t p) q) := by
  show V c main_v43 (((cfg1.win 0).blk t).view.emb (ix2 p q)) = V c main_v43 _
  refine congrArg _ (funext fun a => Fin.ext ?_)
  obtain ⟨e0, e1, -⟩ := blockIndex1 t
  match a with
  | ⟨0, _⟩ => show win1_0.index t (0 : Fin 2) * 5000 + 1 * p.val = t.val * 5000 + p.val; omega
  | ⟨1, _⟩ => show win1_0.index t (1 : Fin 2) * 32 + 1 * q.val = q.val; omega

/-- Every point's block of the bias window is the whole one-row array. -/
theorem biasBlock1_apply (c : Dev nD) (t : Fin cfg1.N) (u : Fin 1) (q : Fin 32) :
    Gen.iblk1 V c 1 t (ix2 u q) = reluBias V c (ix2 u q) := by
  show V c main_v44 (((cfg1.win 1).blk t).view.emb (ix2 u q)) = V c main_v44 _
  refine congrArg _ (funext fun a => Fin.ext ?_)
  obtain ⟨-, -, e2, e3, -⟩ := blockIndex1 t
  match a with
  | ⟨0, _⟩ => show win1_1.index t (0 : Fin 2) * 1 + 1 * u.val = u.val; omega
  | ⟨1, _⟩ => show win1_1.index t (1 : Fin 2) * 32 + 1 * q.val = q.val; omega

/-- Local (p, q) of point `t`'s output block lies at (5000 t + p, q) of the output array. -/
theorem outBlock1_emb (t : Fin cfg1.N) (p : Fin 5000) (q : Fin 32) :
    ((cfg1.win 2).blk t).view.emb (ix2 p q) = (ix2 (rowAt1 t p) q : S100000x32.Idx) := by
  funext a; apply Fin.ext
  obtain ⟨-, -, -, -, e4, e5⟩ := blockIndex1 t
  match a with
  | ⟨0, _⟩ => show win1_2.index t (0 : Fin 2) * 5000 + 1 * p.val = t.val * 5000 + p.val; omega
  | ⟨1, _⟩ => show win1_2.index t (1 : Fin 2) * 32 + 1 * q.val = q.val; omega

/-- The region's output in closed form: entry (a, j) is the input's entry plus column j's bias, cut below at zero. -/
abbrev biasReluOf (c : Dev nD) : S100000x32.Idx → EReal :=
  arr2 (fun (a : Fin 100000) (j : Fin 32) =>
    max (reluIn V c (ix2 a j) + reluBias V c (ix2 (0 : Fin 1) j)) (Ideal.ofBits .f32 0x00000000#32))

/-- What point `t` writes back is its block of the closed form. -/
theorem flushed1_eq (c : Dev nD) (t : Fin cfg1.N) :
    (Gen.dat1 (F := Ideal) V c).flushed 2 t = ((cfg1.win 2).blk t).view.read (Elt Ideal) (biasReluOf V c) := by
  show (cfg1.win 2).cut (grid1.coords t) ((Gen.dat1 (F := Ideal) V c).after 2 t) = _
  rw [Gen.after1_2]
  unfold Gen.out1_2
  rw [View.canon_unit_zero offsets_zero]
  simp only [View.ld_unit_zero (S := S5000x32) offsets_zero, View.ld_unit_zero (S := S1x32) offsets_zero]
  refine funext fun (j : S5000x32.Idx) => ?_
  obtain ⟨p, q, rfl⟩ : ∃ (p : Fin 5000) (q : Fin 32), j = ix2 p q := ⟨j 0, j 1, eq_ix2 j⟩
  show Gen.k1_pay1 (Gen.iblk1 V c 0 t) (Gen.iblk1 V c 1 t) (ix2 p q) = biasReluOf V c (((cfg1.win 2).blk t).view.emb (ix2 p q))
  refine (biasRelu_apply _ _ p q).trans ?_
  rw [rowsBlock1_apply, biasBlock1_apply, outBlock1_emb]
  rfl

/-- An index of the output array is in point `t`'s block iff each coordinate is in the block's range on its axis. -/
theorem mem_outBlock1 (t : Fin cfg1.N) (i : S100000x32.Idx) :
    i ∈ ((cfg1.win 2).blk t).view.set ↔ ∀ a : Fin 2, win1_2.index t a * S5000x32.size a ≤ (i a).val ∧ (i a).val < win1_2.index t a * S5000x32.size a + S5000x32.size a := by
  show i ∈ ((View.whole main_v45).slice (win1_2.rect t)).set ↔ _
  rw [View.set_slice_whole, Rect.mem_set_unit]
  exact Iff.rfl

/-- Row `r` of the output is covered by the point `r / 5000`, which writes back. -/
theorem covered1 (i : S100000x32.Idx) :
    ∃ t : Fin cfg1.N, (cfg1.win 2).flush t = true ∧ i ∈ ((cfg1.win 2).blk t).view.set := by
  have hi0 : (i 0).val < 100000 := (i 0).isLt
  have hi1 : (i 1).val < 32 := (i 1).isLt
  have hN : grid1.N = 20 := Gen.N_1
  let t : Fin cfg1.N := ⟨(i 0).val / 5000, by show (i 0).val / 5000 < grid1.N; omega⟩
  refine ⟨t, Gen.flush1_2 t, ?_⟩
  rw [mem_outBlock1]
  obtain ⟨-, -, -, -, e4, e5⟩ := blockIndex1 t
  have ht : t.val = (i 0).val / 5000 := rfl
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 32 ≤ (i 1).val ∧ (i 1).val < win1_2.index t (1 : Fin 2) * 32 + 32; omega

/-- THE OUTPUT ARRAY after the region: entry (a, j) is `max (x a j + b 0 j) 0`, the zero kept as the word the
    program prints. -/
theorem final1 (c : Dev nD) :
    (Gen.dat1 (F := Ideal) V c).arrAt 2 cfg1.N
      = arr2 (fun (a : Fin 100000) (j : Fin 32) =>
          max (reluIn V c (ix2 a j) + reluBias V c (ix2 (0 : Fin 1) j)) (Ideal.ofBits .f32 0x00000000#32)) :=
  (Gen.dat1 (F := Ideal) V c).arrAt_eq_of_cover 2 (biasReluOf V c) (fun t _ => flushed1_eq V c t) covered1

end Cert.KernelIdeal.RegionValue

end
-- ==== Proof.Region2.lean ====
/-
  The second matmul region of the idealized kernel program, read as a value: after its pipeline the region's output
  array is the product of its two operand arrays, entry by entry, at the ideal values — for any contents the region is
  entered with. The body's product block is read at one (row, column) as the sum over the contracted coordinate; each
  grid point writes back one block of 5000 rows of the product array; the 20 blocks tile the array.
-/
import proofs.«170862_j23587960389966_1_alg».proof.Proof.Spec
import proofs.«170862_j23587960389966_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

-- membership in a rectangle of the arrays' full extents unfolds once per coordinate of the long axis
set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-- The first operand's index at output index `j` and contraction index `k`: row of `j`. -/
theorem lhs2_row (j : S5000x17.Idx) (k : Cert.KernelIdeal.dot_S5000x32_S32x17_S5000x17_1_0_0_1_n_n.contr.Idx) :
    (Cert.KernelIdeal.dot_S5000x32_S32x17_S5000x17_1_0_0_1_n_n.lhsIdx j k 0).val = (j 0).val := by
  unfold DotDims.lhsIdx
  rw [dif_neg (show ¬(0 : Fin S5000x32.rank) ∈ Cert.KernelIdeal.dot_S5000x32_S32x17_S5000x17_1_0_0_1_n_n.lhsBatch by decide), dif_pos (show (0 : Fin S5000x32.rank) ∈ Cert.KernelIdeal.dot_S5000x32_S32x17_S5000x17_1_0_0_1_n_n.lhsNonContracting by decide)]
  rfl
theorem lhs2_col (j : S5000x17.Idx) (k : Cert.KernelIdeal.dot_S5000x32_S32x17_S5000x17_1_0_0_1_n_n.contr.Idx) :
    (Cert.KernelIdeal.dot_S5000x32_S32x17_S5000x17_1_0_0_1_n_n.lhsIdx j k 1).val = (k ⟨0, by decide⟩).val :=
  Cert.KernelIdeal.dot_S5000x32_S32x17_S5000x17_1_0_0_1_n_n.lhsIdx_val_of_single rfl j k
theorem rhs2_row (j : S5000x17.Idx) (k : Cert.KernelIdeal.dot_S5000x32_S32x17_S5000x17_1_0_0_1_n_n.contr.Idx) :
    (Cert.KernelIdeal.dot_S5000x32_S32x17_S5000x17_1_0_0_1_n_n.rhsIdx j k 0).val = (k ⟨0, by decide⟩).val :=
  Cert.KernelIdeal.dot_S5000x32_S32x17_S5000x17_1_0_0_1_n_n.rhsIdx_val_of_single rfl j k
theorem rhs2_col (j : S5000x17.Idx) (k : Cert.KernelIdeal.dot_S5000x32_S32x17_S5000x17_1_0_0_1_n_n.contr.Idx) :
    (Cert.KernelIdeal.dot_S5000x32_S32x17_S5000x17_1_0_0_1_n_n.rhsIdx j k 1).val = (j 1).val := by
  unfold DotDims.rhsIdx
  rw [dif_neg (show ¬(1 : Fin S32x17.rank) ∈ Cert.KernelIdeal.dot_S5000x32_S32x17_S5000x17_1_0_0_1_n_n.rhsBatch by decide), dif_pos (show (1 : Fin S32x17.rank) ∈ Cert.KernelIdeal.dot_S5000x32_S32x17_S5000x17_1_0_0_1_n_n.rhsNonContracting by decide)]
  rfl

/-- The body's product block at row `p`, column `q`: the sum over the 32 contracted coordinates of the first block's
    row `p` times the second block's column `q` (the casts to the same shape and the narrowing to bf16 are the identity on the ideal values,
    and the accumulator is the zero block). -/
theorem matmul2_apply (x0 : Vec Ideal S5000x32 .f32) (x1 : Vec Ideal S32x17 .f32) (p : Fin 5000) (q : Fin 17) :
    k2_pay1 (F := Ideal) x0 x1 (ix2 p q) = ∑ k : Fin 32, x0 (ix2 p k) * x1 (ix2 k q) := by
  unfold k2_pay1
  simp only [matmul, shapeCast_self]
  rw [Ideal.matmul_constant_zero_apply, ← Equiv.sum_comp (contrEquiv1 Cert.KernelIdeal.dot_S5000x32_S32x17_S5000x17_1_0_0_1_n_n 32 rfl rfl).symm]
  refine Finset.sum_congr rfl fun k _ => ?_
  have hk := contrEquiv1_symm_val Cert.KernelIdeal.dot_S5000x32_S32x17_S5000x17_1_0_0_1_n_n 32 rfl rfl k
  have el : Cert.KernelIdeal.dot_S5000x32_S32x17_S5000x17_1_0_0_1_n_n.lhsIdx (ix2 p q) ((contrEquiv1 Cert.KernelIdeal.dot_S5000x32_S32x17_S5000x17_1_0_0_1_n_n 32 rfl rfl).symm k) = ix2 p k := funext fun a => Fin.ext (by
    match a with
    | ⟨0, _⟩ => exact lhs2_row _ _
    | ⟨1, _⟩ => exact (lhs2_col _ _).trans hk)
  have er : Cert.KernelIdeal.dot_S5000x32_S32x17_S5000x17_1_0_0_1_n_n.rhsIdx (ix2 p q) ((contrEquiv1 Cert.KernelIdeal.dot_S5000x32_S32x17_S5000x17_1_0_0_1_n_n 32 rfl rfl).symm k) = ix2 k q := funext fun a => Fin.ext (by
    match a with
    | ⟨0, _⟩ => exact (rhs2_row _ _).trans hk
    | ⟨1, _⟩ => exact rhs2_col _ _)
  rw [truncf_apply, truncf_apply, el, er]

open Cert.GcnSpec

variable (V : (c : Dev nD) → (b : Ref sig .tc) → Buf (Elt Ideal) ((c : Thread nD τ).loc b))

/-- The zero offsets of a whole-buffer access, spelt as the constant function. -/
theorem zero_offsets2 : (![0, 0] : Fin 2 → Nat) = fun _ => 0 := funext fun a => by fin_cases a <;> rfl

/-- The product array: entry (a, b) is the sum over the contracted axis of row `a` of the first operand array times
    column `b` of the second, both as the region finds them. -/
abbrev product2 (c : Dev nD) : S100000x17.Idx → EReal :=
  arr2 (mmAt (n := 100000) (k := 32) (c := 17) (V c main_v45 : S100000x32.Idx → EReal) (V c main_v46 : S32x17.Idx → EReal))

/-- The printed index maps, decided once over the 20 grid points: the first operand's row block moves with the output's,
    which is the point's number; every other block index is 0. -/
theorem block_indices2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- The first operand's block at point `t`, read at (p, k), is the first operand array at row `5000 · t + p`, column `k`. -/
theorem lhs_block2 (c : Dev nD) (t : Fin cfg2.N) (p : Fin 5000) (k : Fin 32) (r : Fin 100000)
    (hr : r.val = win2_2.index t (0 : Fin 2) * 5000 + p.val) :
    iblk2 V c 0 t (ix2 p k) = (V c main_v45 : S100000x32.Idx → EReal) (ix2 r k) := by
  obtain ⟨e0, e1, -, -, -, -⟩ := block_indices2 t
  unfold iblk2
  rw [View.read_apply]
  show V c main_v45 _ = V c main_v45 _
  congr 1
  funext a
  apply Fin.ext
  match a with
  | ⟨0, _⟩ => show win2_0.index t (0 : Fin 2) * 5000 + 1 * p.val = r.val; omega
  | ⟨1, _⟩ => show win2_0.index t (1 : Fin 2) * 32 + 1 * k.val = k.val; omega

/-- The second operand's block at any point is the whole second operand array. -/
theorem rhs_block2 (c : Dev nD) (t : Fin cfg2.N) (k : Fin 32) (q : Fin 17) :
    iblk2 V c 1 t (ix2 k q) = (V c main_v46 : S32x17.Idx → EReal) (ix2 k q) := by
  obtain ⟨-, -, e2, e3, -, -⟩ := block_indices2 t
  unfold iblk2
  rw [View.read_apply]
  show V c main_v46 _ = V c main_v46 _
  congr 1
  funext a
  apply Fin.ext
  match a with
  | ⟨0, _⟩ => show win2_1.index t (0 : Fin 2) * 32 + 1 * k.val = k.val; omega
  | ⟨1, _⟩ => show win2_1.index t (1 : Fin 2) * 17 + 1 * q.val = q.val; omega

/-- The output block's index (p, q) at point `t` is row `5000 · t + p`, column `q` of the output array. -/
theorem out_block2 (t : Fin cfg2.N) (p : Fin 5000) (q : Fin 17) (r : Fin 100000)
    (hr : r.val = win2_2.index t (0 : Fin 2) * 5000 + p.val) :
    ((cfg2.win 2).blk t).view.emb (ix2 p q) = (ix2 r q : S100000x17.Idx) := by
  obtain ⟨-, -, -, -, -, e5⟩ := block_indices2 t
  funext a
  apply Fin.ext
  match a with
  | ⟨0, _⟩ => show win2_2.index t (0 : Fin 2) * 5000 + 1 * p.val = r.val; omega
  | ⟨1, _⟩ => show win2_2.index t (1 : Fin 2) * 17 + 1 * q.val = q.val; omega

/-- WHAT POINT `t` WRITES BACK is block `t` of the product array. -/
theorem flushed2_eq (c : Dev nD) (t : Fin cfg2.N) :
    (dat2 (F := Ideal) V c).flushed 2 t = ((cfg2.win 2).blk t).view.read (Elt Ideal) (product2 V c) := by
  show (cfg2.win 2).cut (grid2.coords t) ((dat2 V c).after 2 t) = _
  rw [after2_2]
  unfold out2_2
  rw [View.canon_unit_zero zero_offsets2]
  simp only [View.ld_unit_zero (S := S5000x32) zero_offsets2, View.ld_unit_zero (S := S32x17) zero_offsets2]
  funext j
  obtain ⟨p, q, rfl⟩ : ∃ (p : Fin 5000) (q : Fin 17), j = ix2 p q := ⟨j 0, j 1, eq_ix2 j⟩
  obtain ⟨-, -, -, -, e4, -⟩ := block_indices2 t
  have hN : grid2.N = 20 := N_2
  have ht : t.val < grid2.N := t.isLt
  have hp : p.val < 5000 := p.isLt
  have hrow : win2_2.index t (0 : Fin 2) * 5000 + p.val < 100000 := by omega
  show k2_pay1 (F := Ideal) (iblk2 V c 0 t) (iblk2 V c 1 t) (ix2 p q) = product2 V c (((cfg2.win 2).blk t).view.emb (ix2 p q))
  rw [out_block2 t p q ⟨_, hrow⟩ rfl, matmul2_apply]
  unfold product2
  rw [arr2_ix2]
  unfold mmAt
  refine Finset.sum_congr rfl fun k _ => ?_
  rw [lhs_block2 V c t p k ⟨_, hrow⟩ rfl, rhs_block2 V c t k q]

/-- An index of the output array is in point `t`'s block iff each coordinate is in the block's range on its axis. -/
theorem mem_block2 (t : Fin cfg2.N) (i : S100000x17.Idx) :
    i ∈ ((cfg2.win 2).blk t).view.set ↔ ∀ a : Fin 2, win2_2.index t a * S5000x17.size a ≤ (i a).val ∧ (i a).val < win2_2.index t a * S5000x17.size a + S5000x17.size a := by
  show i ∈ ((View.whole main_v47).slice (win2_2.rect t)).set ↔ _
  rw [View.set_slice_whole, Rect.mem_set_unit]
  exact Iff.rfl

/-- Every row `r` of the output array is written by point `r / 5000`. -/
theorem covered2 (i : S100000x17.Idx) :
    ∃ t : Fin cfg2.N, (cfg2.win 2).flush t = true ∧ i ∈ ((cfg2.win 2).blk t).view.set := by
  have hi0 : (i 0).val < 100000 := (i 0).isLt
  have hi1 : (i 1).val < 17 := (i 1).isLt
  have hN : grid2.N = 20 := N_2
  have hlt : (i 0).val / 5000 < cfg2.N := by show _ < grid2.N; omega
  obtain ⟨-, -, -, -, e4, e5⟩ := block_indices2 ⟨(i 0).val / 5000, hlt⟩
  have e4' : win2_2.index ⟨(i 0).val / 5000, hlt⟩ (0 : Fin 2) = (i 0).val / 5000 := e4
  refine ⟨⟨(i 0).val / 5000, hlt⟩, flush2_2 _, ?_⟩
  rw [mem_block2]
  intro a
  match a with
  | ⟨0, _⟩ =>
    show win2_2.index ⟨(i 0).val / 5000, hlt⟩ (0 : Fin 2) * 5000 ≤ (i 0).val ∧ (i 0).val < win2_2.index ⟨(i 0).val / 5000, hlt⟩ (0 : Fin 2) * 5000 + 5000
    omega
  | ⟨1, _⟩ =>
    show win2_2.index ⟨(i 0).val / 5000, hlt⟩ (1 : Fin 2) * 17 ≤ (i 1).val ∧ (i 1).val < win2_2.index ⟨(i 0).val / 5000, hlt⟩ (1 : Fin 2) * 17 + 17
    omega

/-- THE OUTPUT ARRAY of the second matmul region after its pipeline: the product of its two operand arrays as the
    region finds them, entry by entry. -/
theorem final2 (c : Dev nD) : (dat2 (F := Ideal) V c).arrAt 2 cfg2.N
    = arr2 (mmAt (n := 100000) (k := 32) (c := 17) (V c main_v45 : S100000x32.Idx → EReal) (V c main_v46 : S32x17.Idx → EReal)) :=
  (dat2 (F := Ideal) V c).arrAt_eq_of_cover 2 (product2 V c) (fun t _ => flushed2_eq V c t) covered2

end Cert.KernelIdeal.RegionValue

end
-- ==== Proof.BridgeHeads.lean ====
/-
  The second layer's two heads against the kernel program's one product. The kernel program multiplies the rectified
  first layer by ONE 32×17 matrix — the mean head's sixteen columns, then the variance head's one column, joined along
  the column axis — where the reference multiplies it by each head's matrix separately. Entry by entry the products
  agree: a column below 16 of the joined matrix is that column of the mean head's, column 16 is the variance head's
  only column, and each side is then the same sum over the 32 contracted coordinates.
-/
import proofs.«170862_j23587960389966_1_alg».proof.Proof.Spec
import proofs.«170862_j23587960389966_1_alg».proof.Proof.RefRead
import proofs.«170862_j23587960389966_1_alg».proof.KernelIdeal
import Idealize.ShloMosaic.Lib.Pipeline.Value

noncomputable section

namespace Cert.GcnBridge

open Idealize.ShloMosaic Idealize.ShloMosaic.ValueIdx Cert.GcnSpec
open Cert.ReferenceIdeal Cert.ReferenceIdeal.Read

/-- A 32×16 and a 32×1 array join along the column axis into a 32×17 array. -/
theorem joined_shape : Shape.Concatenates [Cert.KernelIdeal.S32x16, Cert.KernelIdeal.S32x1] Cert.KernelIdeal.S32x17 1 := by decide

/-- The kernel program's second-layer matrix: the mean head's 32×16 weights and the variance head's 32×1 weights
    joined along the column axis into one 32×17 matrix. -/
abbrev Wmv (x4 : (⟨S32x16, .f32⟩ : BufTy).Contents (Elt Ideal)) (x6 : (⟨S32x1, .f32⟩ : BufTy).Contents (Elt Ideal)) :
    (⟨Cert.KernelIdeal.S32x17, .f32⟩ : BufTy).Contents (Elt Ideal) :=
  concatenate (α := EReal) Cert.KernelIdeal.S32x17 1 [⟨Cert.KernelIdeal.S32x16, x4⟩, ⟨Cert.KernelIdeal.S32x1, x6⟩] joined_shape

/-- A column below 16 of the joined matrix is that column of the mean head's matrix. -/
theorem Wmv_col (x4 : (⟨S32x16, .f32⟩ : BufTy).Contents (Elt Ideal)) (x6 : (⟨S32x1, .f32⟩ : BufTy).Contents (Elt Ideal))
    (q : Fin 32) (j : Fin 16) : Wmv x4 x6 (ix2 q (Fin.castLE (by decide) j)) = x4 (ix2 q j) :=
  concatenate_pair_apply_left (α := EReal) (t := Cert.KernelIdeal.S32x17) (s₁ := Cert.KernelIdeal.S32x16) (s₂ := Cert.KernelIdeal.S32x1)
    (1 : Fin 2) x4 x6 joined_shape (ix2 q (Fin.castLE (by decide) j) : Cert.KernelIdeal.S32x17.Idx) rfl (ix2 q j : Cert.KernelIdeal.S32x16.Idx) fun b => by
    match b with
    | ⟨0, _⟩ => rfl
    | ⟨1, _⟩ => rfl

/-- Column 16 of the joined matrix is the variance head's only column. -/
theorem Wmv_last (x4 : (⟨S32x16, .f32⟩ : BufTy).Contents (Elt Ideal)) (x6 : (⟨S32x1, .f32⟩ : BufTy).Contents (Elt Ideal))
    (q : Fin 32) : Wmv x4 x6 (ix2 q (16 : Fin 17)) = x6 (ix2 q (0 : Fin 1)) :=
  concatenate_pair_apply_right (α := EReal) (t := Cert.KernelIdeal.S32x17) (s₁ := Cert.KernelIdeal.S32x16) (s₂ := Cert.KernelIdeal.S32x1)
    (1 : Fin 2) x4 x6 joined_shape (ix2 q (16 : Fin 17) : Cert.KernelIdeal.S32x17.Idx) rfl rfl (ix2 q (0 : Fin 1) : Cert.KernelIdeal.S32x1.Idx)
    (fun b hb => by
      match b with
      | ⟨0, _⟩ => rfl
      | ⟨1, _⟩ => exact absurd rfl hb)
    rfl

/-- For any left operand: entry (r, j), j below 16, of its product with the joined matrix is the sum over the
    contracted coordinate against the mean head's column j. -/
theorem mm_joined_col (h : (⟨S100000x32, .f32⟩ : BufTy).Contents (Elt Ideal))
    (x4 : (⟨S32x16, .f32⟩ : BufTy).Contents (Elt Ideal)) (x6 : (⟨S32x1, .f32⟩ : BufTy).Contents (Elt Ideal))
    (r : Fin 100000) (j : Fin 16) :
    mmAt (n := 100000) (k := 32) (c := 17) h (Wmv x4 x6) r (Fin.castLE (by decide) j) = ∑ q : Fin 32, h (ix2 r q) * x4 (ix2 q j) := by
  unfold mmAt
  refine Finset.sum_congr rfl fun q _ => ?_
  rw [Wmv_col]

/-- For any left operand: entry (r, 16) of its product with the joined matrix is the sum over the contracted coordinate
    against the variance head's column. -/
theorem mm_joined_last (h : (⟨S100000x32, .f32⟩ : BufTy).Contents (Elt Ideal))
    (x4 : (⟨S32x16, .f32⟩ : BufTy).Contents (Elt Ideal)) (x6 : (⟨S32x1, .f32⟩ : BufTy).Contents (Elt Ideal))
    (r : Fin 100000) :
    mmAt (n := 100000) (k := 32) (c := 17) h (Wmv x4 x6) r (16 : Fin 17) = ∑ q : Fin 32, h (ix2 r q) * x6 (ix2 q (0 : Fin 1)) := by
  unfold mmAt
  refine Finset.sum_congr rfl fun q _ => ?_
  rw [Wmv_last]

/-- THE MEAN HEAD: columns below 16 of the kernel program's one product are the reference's mean-head product. -/
theorem heads_col (x0 : (⟨S100000x128, .f32⟩ : BufTy).Contents (Elt Ideal)) (x1 : (⟨S2x3200000, .i32⟩ : BufTy).Contents (Elt Ideal))
    (x2 : (⟨S128x32, .f32⟩ : BufTy).Contents (Elt Ideal)) (x3 : (⟨S32, .f32⟩ : BufTy).Contents (Elt Ideal))
    (x4 : (⟨S32x16, .f32⟩ : BufTy).Contents (Elt Ideal)) (x6 : (⟨S32x1, .f32⟩ : BufTy).Contents (Elt Ideal))
    (r : Fin 100000) (j : Fin 16) :
    mmAt (n := 100000) (k := 32) (c := 17) (val_main_v47 (F := Ideal) x0 x1 x2 x3) (Wmv x4 x6) r (Fin.castLE (by decide) j)
      = val_main_v48 (F := Ideal) x0 x1 x2 x3 x4 (ix2 r j) := by
  rw [mm_joined_col, val_main_v48_apply]
  refine Finset.sum_congr rfl fun q _ => ?_
  have el : lidx_main_v48 (ix2 r j) q = ix2 r q := funext fun d => by
    match d with
    | ⟨0, _⟩ => rfl
    | ⟨1, _⟩ => rfl
  have er : ridx_main_v48 (ix2 r j) q = ix2 q j := funext fun d => by
    match d with
    | ⟨0, _⟩ => rfl
    | ⟨1, _⟩ => rfl
  rw [el, er]

/-- THE VARIANCE HEAD: column 16 of the kernel program's one product is the reference's variance-head product. -/
theorem heads_last (x0 : (⟨S100000x128, .f32⟩ : BufTy).Contents (Elt Ideal)) (x1 : (⟨S2x3200000, .i32⟩ : BufTy).Contents (Elt Ideal))
    (x2 : (⟨S128x32, .f32⟩ : BufTy).Contents (Elt Ideal)) (x3 : (⟨S32, .f32⟩ : BufTy).Contents (Elt Ideal))
    (x4 : (⟨S32x16, .f32⟩ : BufTy).Contents (Elt Ideal)) (x6 : (⟨S32x1, .f32⟩ : BufTy).Contents (Elt Ideal))
    (r : Fin 100000) :
    mmAt (n := 100000) (k := 32) (c := 17) (val_main_v47 (F := Ideal) x0 x1 x2 x3) (Wmv x4 x6) r (16 : Fin 17)
      = val_main_v68 (F := Ideal) x0 x1 x2 x3 x6 (ix2 r (0 : Fin 1)) := by
  rw [mm_joined_last, val_main_v68_apply]
  refine Finset.sum_congr rfl fun q _ => ?_
  have el : lidx_main_v68 (ix2 r (0 : Fin 1)) q = ix2 r q := funext fun d => by
    match d with
    | ⟨0, _⟩ => rfl
    | ⟨1, _⟩ => rfl
  have er : ridx_main_v68 (ix2 r (0 : Fin 1)) q = ix2 q (0 : Fin 1) := funext fun d => by
    match d with
    | ⟨0, _⟩ => rfl
    | ⟨1, _⟩ => rfl
  rw [el, er]

end Cert.GcnBridge

end
-- ==== Proof.Region3.lean ====
/-
  REGION 3 (the final pipeline): its two output arrays in closed form, at the buffer contents `V` the region is
  entered with, over the extended reals.

  The body reads a 5000 × 17 block, a 1 × 16 bias row and a 1 × 1 bias. Its first output takes the first sixteen
  columns plus the bias row, g, and divides each row by the square root of its sum of squares, ∑ l, g l * g l; its
  second takes the seventeenth column plus the one bias and applies a softplus plus one, kept as the tree of operations
  the body prints (`kSoftplus1`). Each payload is read at one element (`normalize_apply`, `softplusCol_apply`; the
  lane sum by `rowSum_apply`, the column forms by `shapeCast_a_a1_apply`, `broadcastTo_a1_ab_apply`), each window's
  block is read off its array by coordinates (point `t` holds rows 5000 t … 5000 t + 4999), so what point `t` writes
  back is its block of one whole-array function per output (`flushedMean_eq`, `flushedVar_eq`); the twenty blocks
  cover the 100000 rows (row r is in block r / 5000), so each array ends at its function (`final3_mean`,
  `final3_var`).
-/
import proofs.«170862_j23587960389966_1_alg».proof.Proof.Spec
import proofs.«170862_j23587960389966_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open Cert.GcnSpec

variable (V : (c : Dev nD) → (b : Ref sig .tc) → Buf (Elt Ideal) ((c : Thread nD τ).loc b))

/-- The zero offsets of a rank-2 whole-buffer rectangle, as the constant function. -/
theorem offsets_zero3 : (![0, 0] : Fin 2 → Nat) = fun _ => 0 := funext fun a => by fin_cases a <;> rfl

/-! ## Two column forms the body uses: a vector as one column, and one column repeated -/

/-- A length-`a` vector cast to an `a × 1` column reads, at (p, u), the vector at p. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `a × 1` column broadcast to `a × b` reads, at (p, q), the column at row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The body's two payloads at one element -/

/-- Column `j` (of the first sixteen) of a row of the 17-wide block, plus that column's bias. -/
def biased (x0 : Vec Ideal S5000x17 .f32) (x1 : Vec Ideal S1x16 .f32) (p : Fin 5000) (j : Fin 16) : EReal :=
  x0 (ix2 p (Fin.castLE (by decide : 16 ≤ 17) j)) + x1 (ix2 (0 : Fin 1) j)

/-- The sum over a row's sixteen lanes: the one-axis reduction read at a row. -/
theorem rowSum_apply (src : FVec Ideal S5000x16 .f32) (hφ : FKind.Formats .f32)
    (hacc : (0x00000000#32 : BitVec 32) = 0x00000000#32) (p : Fin 5000) :
    multiReduction .add [1] S5000 src 0x00000000#32 reduces_S5000x16_S5000 hφ hacc (ix1 p) = ∑ l : Fin 16, src (ix2 p l) := by
  refine (Ideal.multiReduction_add_single src 0x00000000#32 reduces_S5000x16_S5000 hφ hacc (ix1 p)).trans ?_
  refine Finset.sum_congr rfl fun l _ => congrArg src (funext fun a => Fin.ext ?_)
  match a with
  | ⟨0, _⟩ => rfl
  | ⟨1, _⟩ => rfl

/-- One element of the normalizing payload: the biased entry divided by the root of its row's sum of squares. -/
theorem normalize_apply (x0 : Vec Ideal S5000x17 .f32) (x1 : Vec Ideal S1x16 .f32) (p : Fin 5000) (q : Fin 16) :
    Gen.k3_pay2 x0 x1 (ix2 p q)
      = Ideal.div (biased x0 x1 p q) (Ideal.sqrt (∑ l : Fin 16, biased x0 x1 p l * biased x0 x1 p l)) := by
  have hb : ∀ j : Fin 16, addf (F := Ideal) (s := S5000x16) (φ := .f32) (extractStridedSlice S5000x16 ![0, 0] x0 slices_S5000x17_o0_0_S5000x16)
      (broadcastTo S5000x16 x1 broadcasts_S1x16_S5000x16) (ix2 p j) = biased x0 x1 p j := fun j => by
    rw [addf_apply, slice2_axis1_apply 0 x0 slices_S5000x17_o0_0_S5000x16 p j (Fin.castLE (by decide : 16 ≤ 17) j) (Nat.zero_add _).symm,
      broadcastTo_1b_ab_apply]
    rfl
  unfold Gen.k3_pay2 Gen.k3_pay1
  simp only [shapeCast_self]
  rw [divf_apply, hb, broadcastTo_a1_ab_apply]
  show Ideal.div _ (Ideal.sqrt (shapeCast S5000x1 _ shapeCasts_S5000_S5000x1 (ix2 p (0 : Fin 1)))) = _
  rw [shapeCast_a_a1_apply, rowSum_apply]
  refine congrArg (fun s => Ideal.div _ (Ideal.sqrt s)) (Finset.sum_congr rfl fun l _ => ?_)
  rw [mulf_apply, hb]

/-- The body's second output at one element, literally the tree of operations it prints: with z the value of the
    word 0x00000000 and w the value of the word 0x3F800000, select on "v − z ≠ v − z" between v + z and
    max v z + log1p (exp (z − |v − z|)), plus w — a softplus plus one (|x| is max x (−x) over the extended reals). -/
def kSoftplus1 (v : EReal) : EReal :=
  Scalar.select (Ideal.cmp .one (v - Ideal.ofBits .f32 0x00000000#32) (v - Ideal.ofBits .f32 0x00000000#32))
      (v + Ideal.ofBits .f32 0x00000000#32)
      (max v (Ideal.ofBits .f32 0x00000000#32)
        + Ideal.log1p (Ideal.exp (Ideal.ofBits .f32 0x00000000#32
            - max (v - Ideal.ofBits .f32 0x00000000#32) (-(v - Ideal.ofBits .f32 0x00000000#32)))))
    + Ideal.ofBits .f32 0x3F800000#32

/-- One element of the second payload: `kSoftplus1` of the row's seventeenth column plus the one bias. -/
theorem softplusCol_apply (x0 : Vec Ideal S5000x17 .f32) (x2 : Vec Ideal S1x1 .f32) (p : Fin 5000) (u : Fin 1) :
    Gen.k3_pay3 x0 x2 (ix2 p u) = kSoftplus1 (x0 (ix2 p (16 : Fin 17)) + x2 (ix2 (0 : Fin 1) (0 : Fin 1))) := by
  have hb : addf (F := Ideal) (s := S5000x1) (φ := .f32) (extractStridedSlice S5000x1 ![0, 16] x0 slices_S5000x17_o0_16_S5000x1)
      (broadcastTo S5000x1 x2 broadcasts_S1x1_S5000x1) (ix2 p u) = x0 (ix2 p (16 : Fin 17)) + x2 (ix2 (0 : Fin 1) (0 : Fin 1)) := by
    have hu : u = 0 := Subsingleton.elim _ _
    subst hu
    rw [addf_apply, slice2_axis1_apply 16 x0 slices_S5000x17_o0_16_S5000x1 p (0 : Fin 1) (16 : Fin 17) rfl,
      broadcastTo_1b_ab_apply]
  unfold Gen.k3_pay3 Gen.k3_pay1
  simp only [shapeCast_self]
  show kSoftplus1 (addf (F := Ideal) (s := S5000x1) (φ := .f32) (extractStridedSlice S5000x1 ![0, 16] x0 slices_S5000x17_o0_16_S5000x1)
      (broadcastTo S5000x1 x2 broadcasts_S1x1_S5000x1) (ix2 p u)) = _
  rw [hb]

/-! ## The windows' blocks by coordinates -/

/-- The block index maps of the region's five windows, decided over the twenty grid points: the row-blocked windows
    (the input and both outputs) sit at block row `t`, column block 0; the two bias windows at block (0, 0). -/
theorem blockIndex3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- Row `5000 t + p` of the 100000 rows: the row that point `t`'s block holds at its local row `p`. -/
def rowAt3 (t : Fin cfg3.N) (p : Fin 5000) : Fin 100000 :=
  ⟨t.val * 5000 + p.val, by
    have h : t.val < grid3.N := t.isLt
    rw [Gen.N_3] at h
    have := p.isLt
    omega⟩

/-- The region's 17-column input as it finds it. -/
abbrev finalIn (c : Dev nD) : S100000x17.Idx → EReal := V c main_v60

/-- The sixteen-column bias row as the region finds it. -/
abbrev meanBias (c : Dev nD) : S1x16.Idx → EReal := V c main_v61

/-- The one-element bias as the region finds it. -/
abbrev varBias (c : Dev nD) : S1x1.Idx → EReal := V c main_v62

/-- Point `t`'s block of the 17-column input, at local (p, k), is the array at (5000 t + p, k). -/
theorem rowsBlock3_apply (c : Dev nD) (t : Fin cfg3.N) (p : Fin 5000) (k : Fin 17) :
    Gen.iblk3 V c 0 t (ix2 p k) = finalIn V c (ix2 (rowAt3 t p) k) := by
  show V c main_v60 (((cfg3.win 0).blk t).view.emb (ix2 p k)) = V c main_v60 _
  refine congrArg _ (funext fun a => Fin.ext ?_)
  obtain ⟨e0, e1, -⟩ := blockIndex3 t
  match a with
  | ⟨0, _⟩ => show win3_0.index t (0 : Fin 2) * 5000 + 1 * p.val = t.val * 5000 + p.val; omega
  | ⟨1, _⟩ => show win3_0.index t (1 : Fin 2) * 17 + 1 * k.val = k.val; omega

/-- Every point's block of the sixteen-column bias window is the whole one-row array. -/
theorem meanBiasBlock_apply (c : Dev nD) (t : Fin cfg3.N) (u : Fin 1) (q : Fin 16) :
    Gen.iblk3 V c 1 t (ix2 u q) = meanBias V c (ix2 u q) := by
  show V c main_v61 (((cfg3.win 1).blk t).view.emb (ix2 u q)) = V c main_v61 _
  refine congrArg _ (funext fun a => Fin.ext ?_)
  obtain ⟨-, -, e2, e3, -⟩ := blockIndex3 t
  match a with
  | ⟨0, _⟩ => show win3_1.index t (0 : Fin 2) * 1 + 1 * u.val = u.val; omega
  | ⟨1, _⟩ => show win3_1.index t (1 : Fin 2) * 16 + 1 * q.val = q.val; omega

/-- Every point's block of the one-element bias window is the whole array. -/
theorem varBiasBlock_apply (c : Dev nD) (t : Fin cfg3.N) (u v : Fin 1) :
    Gen.iblk3 V c 2 t (ix2 u v) = varBias V c (ix2 u v) := by
  show V c main_v62 (((cfg3.win 2).blk t).view.emb (ix2 u v)) = V c main_v62 _
  refine congrArg _ (funext fun a => Fin.ext ?_)
  obtain ⟨-, -, -, -, e4, e5, -⟩ := blockIndex3 t
  match a with
  | ⟨0, _⟩ => show win3_2.index t (0 : Fin 2) * 1 + 1 * u.val = u.val; omega
  | ⟨1, _⟩ => show win3_2.index t (1 : Fin 2) * 1 + 1 * v.val = v.val; omega

/-- Local (p, q) of point `t`'s block of the sixteen-column output lies at (5000 t + p, q) of that array. -/
theorem meanBlock_emb (t : Fin cfg3.N) (p : Fin 5000) (q : Fin 16) :
    ((cfg3.win 3).blk t).view.emb (ix2 p q) = (ix2 (rowAt3 t p) q : S100000x16.Idx) := by
  funext a; apply Fin.ext
  obtain ⟨-, -, -, -, -, -, e6, e7, -⟩ := blockIndex3 t
  match a with
  | ⟨0, _⟩ => show win3_3.index t (0 : Fin 2) * 5000 + 1 * p.val = t.val * 5000 + p.val; omega
  | ⟨1, _⟩ => show win3_3.index t (1 : Fin 2) * 16 + 1 * q.val = q.val; omega

/-- Local (p, u) of point `t`'s block of the one-column output lies at (5000 t + p, u) of that array. -/
theorem varBlock_emb (t : Fin cfg3.N) (p : Fin 5000) (u : Fin 1) :
    ((cfg3.win 4).blk t).view.emb (ix2 p u) = (ix2 (rowAt3 t p) u : S100000x1.Idx) := by
  funext a; apply Fin.ext
  obtain ⟨-, -, -, -, -, -, -, -, e8, e9⟩ := blockIndex3 t
  match a with
  | ⟨0, _⟩ => show win3_4.index t (0 : Fin 2) * 5000 + 1 * p.val = t.val * 5000 + p.val; omega
  | ⟨1, _⟩ => show win3_4.index t (1 : Fin 2) * 1 + 1 * u.val = u.val; omega

/-! ## The sixteen-column output (window 3) -/

/-- Entry (a, j) of the biased input: column j of row a of the 17-column array plus column j's bias. -/
def biasedAt (c : Dev nD) (a : Fin 100000) (j : Fin 16) : EReal :=
  finalIn V c (ix2 a (Fin.castLE (by decide : 16 ≤ 17) j)) + meanBias V c (ix2 (0 : Fin 1) j)

/-- The sixteen-column output in closed form: each biased row divided by the root of its sum of squares. -/
abbrev normalizedOf (c : Dev nD) : S100000x16.Idx → EReal :=
  arr2 (fun (a : Fin 100000) (j : Fin 16) =>
    Ideal.div (biasedAt V c a j) (Ideal.sqrt (∑ l : Fin 16, biasedAt V c a l * biasedAt V c a l)))

/-- The biased entry of point `t`'s blocks at local (p, j) is the biased entry of the arrays at (5000 t + p, j). -/
theorem biased_block (c : Dev nD) (t : Fin cfg3.N) (p : Fin 5000) (j : Fin 16) :
    biased (Gen.iblk3 V c 0 t) (Gen.iblk3 V c 1 t) p j = biasedAt V c (rowAt3 t p) j := by
  unfold biased biasedAt
  rw [rowsBlock3_apply, meanBiasBlock_apply]

/-- What point `t` writes back to the sixteen-column output is its block of the closed form. -/
theorem flushedMean_eq (c : Dev nD) (t : Fin cfg3.N) :
    (Gen.dat3 (F := Ideal) V c).flushed 3 t = ((cfg3.win 3).blk t).view.read (Elt Ideal) (normalizedOf V c) := by
  show (cfg3.win 3).cut (grid3.coords t) ((Gen.dat3 (F := Ideal) V c).after 3 t) = _
  rw [Gen.after3_3]
  unfold Gen.out3_3
  rw [View.canon_unit_zero offsets_zero3]
  simp only [View.ld_unit_zero (S := S5000x17) offsets_zero3, View.ld_unit_zero (S := S1x16) offsets_zero3]
  refine funext fun (j : S5000x16.Idx) => ?_
  obtain ⟨p, q, rfl⟩ : ∃ (p : Fin 5000) (q : Fin 16), j = ix2 p q := ⟨j 0, j 1, eq_ix2 j⟩
  show Gen.k3_pay2 (Gen.iblk3 V c 0 t) (Gen.iblk3 V c 1 t) (ix2 p q) = normalizedOf V c (((cfg3.win 3).blk t).view.emb (ix2 p q))
  refine (normalize_apply _ _ p q).trans ?_
  rw [meanBlock_emb]
  simp only [biased_block]
  rfl

/-- An index of the sixteen-column output is in point `t`'s block iff each coordinate is in the block's range. -/
theorem mem_meanBlock (t : Fin cfg3.N) (i : S100000x16.Idx) :
    i ∈ ((cfg3.win 3).blk t).view.set ↔ ∀ a : Fin 2, win3_3.index t a * S5000x16.size a ≤ (i a).val ∧ (i a).val < win3_3.index t a * S5000x16.size a + S5000x16.size a := by
  show i ∈ ((View.whole main_v63_0).slice (win3_3.rect t)).set ↔ _
  rw [View.set_slice_whole, Rect.mem_set_unit]
  exact Iff.rfl

/-- Row `r` of the sixteen-column output is covered by the point `r / 5000`, which writes back. -/
theorem coveredMean (i : S100000x16.Idx) :
    ∃ t : Fin cfg3.N, (cfg3.win 3).flush t = true ∧ i ∈ ((cfg3.win 3).blk t).view.set := by
  have hi0 : (i 0).val < 100000 := (i 0).isLt
  have hi1 : (i 1).val < 16 := (i 1).isLt
  have hN : grid3.N = 20 := Gen.N_3
  let t : Fin cfg3.N := ⟨(i 0).val / 5000, by show (i 0).val / 5000 < grid3.N; omega⟩
  refine ⟨t, Gen.flush3_3 t, ?_⟩
  rw [mem_meanBlock]
  obtain ⟨-, -, -, -, -, -, e6, e7, -⟩ := blockIndex3 t
  have ht : t.val = (i 0).val / 5000 := rfl
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 16 ≤ (i 1).val ∧ (i 1).val < win3_3.index t (1 : Fin 2) * 16 + 16; omega

/-- THE SIXTEEN-COLUMN OUTPUT after the region: entry (a, j) is the biased entry g a j divided by the square root
    of ∑ l, g a l * g a l, where g a j is column j of row a of the input plus column j's bias. -/
theorem final3_mean (c : Dev nD) :
    (Gen.dat3 (F := Ideal) V c).arrAt 3 cfg3.N
      = arr2 (fun (a : Fin 100000) (j : Fin 16) =>
          Ideal.div (biasedAt V c a j) (Ideal.sqrt (∑ l : Fin 16, biasedAt V c a l * biasedAt V c a l))) :=
  (Gen.dat3 (F := Ideal) V c).arrAt_eq_of_cover 3 (normalizedOf V c) (fun t _ => flushedMean_eq V c t) coveredMean

/-! ## The one-column output (window 4) -/

/-- The one-column output in closed form: `kSoftplus1` of each row's seventeenth column plus the one bias. -/
abbrev softplusOf (c : Dev nD) : S100000x1.Idx → EReal :=
  arr2 (fun (a : Fin 100000) (_ : Fin 1) =>
    kSoftplus1 (finalIn V c (ix2 a (16 : Fin 17)) + varBias V c (ix2 (0 : Fin 1) (0 : Fin 1))))

/-- What point `t` writes back to the one-column output is its block of the closed form. -/
theorem flushedVar_eq (c : Dev nD) (t : Fin cfg3.N) :
    (Gen.dat3 (F := Ideal) V c).flushed 4 t = ((cfg3.win 4).blk t).view.read (Elt Ideal) (softplusOf V c) := by
  show (cfg3.win 4).cut (grid3.coords t) ((Gen.dat3 (F := Ideal) V c).after 4 t) = _
  rw [Gen.after3_4]
  unfold Gen.out3_4
  rw [View.canon_unit_zero offsets_zero3]
  simp only [View.ld_unit_zero (S := S5000x17) offsets_zero3, View.ld_unit_zero (S := S1x1) offsets_zero3]
  refine funext fun (j : S5000x1.Idx) => ?_
  obtain ⟨p, u, rfl⟩ : ∃ (p : Fin 5000) (u : Fin 1), j = ix2 p u := ⟨j 0, j 1, eq_ix2 j⟩
  show Gen.k3_pay3 (Gen.iblk3 V c 0 t) (Gen.iblk3 V c 2 t) (ix2 p u) = softplusOf V c (((cfg3.win 4).blk t).view.emb (ix2 p u))
  refine (softplusCol_apply _ _ p u).trans ?_
  rw [rowsBlock3_apply, varBiasBlock_apply, varBlock_emb]
  rfl

/-- An index of the one-column output is in point `t`'s block iff each coordinate is in the block's range. -/
theorem mem_varBlock (t : Fin cfg3.N) (i : S100000x1.Idx) :
    i ∈ ((cfg3.win 4).blk t).view.set ↔ ∀ a : Fin 2, win3_4.index t a * S5000x1.size a ≤ (i a).val ∧ (i a).val < win3_4.index t a * S5000x1.size a + S5000x1.size a := by
  show i ∈ ((View.whole main_v63_1).slice (win3_4.rect t)).set ↔ _
  rw [View.set_slice_whole, Rect.mem_set_unit]
  exact Iff.rfl

/-- Row `r` of the one-column output is covered by the point `r / 5000`, which writes back. -/
theorem coveredVar (i : S100000x1.Idx) :
    ∃ t : Fin cfg3.N, (cfg3.win 4).flush t = true ∧ i ∈ ((cfg3.win 4).blk t).view.set := by
  have hi0 : (i 0).val < 100000 := (i 0).isLt
  have hi1 : (i 1).val < 1 := (i 1).isLt
  have hN : grid3.N = 20 := Gen.N_3
  let t : Fin cfg3.N := ⟨(i 0).val / 5000, by show (i 0).val / 5000 < grid3.N; omega⟩
  refine ⟨t, Gen.flush3_4 t, ?_⟩
  rw [mem_varBlock]
  obtain ⟨-, -, -, -, -, -, -, -, e8, e9⟩ := blockIndex3 t
  have ht : t.val = (i 0).val / 5000 := rfl
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 1 ≤ (i 1).val ∧ (i 1).val < win3_4.index t (1 : Fin 2) * 1 + 1; omega

/-- THE ONE-COLUMN OUTPUT after the region: entry (a, 0) is `kSoftplus1` of the seventeenth column of row a of the
    input plus the one bias. -/
theorem final3_var (c : Dev nD) :
    (Gen.dat3 (F := Ideal) V c).arrAt 4 cfg3.N
      = arr2 (fun (a : Fin 100000) (_ : Fin 1) =>
          kSoftplus1 (finalIn V c (ix2 a (16 : Fin 17)) + varBias V c (ix2 (0 : Fin 1) (0 : Fin 1)))) :=
  (Gen.dat3 (F := Ideal) V c).arrAt_eq_of_cover 4 (softplusOf V c) (fun t _ => flushedVar_eq V c t) coveredVar

end Cert.KernelIdeal.RegionValue

end
-- ==== Proof.BridgeEpilogue.lean ====
/-
  The kernel program's three pointwise stages, written entry by entry over the extended reals, are the reference
  program's stages: the bias-and-rectify stage (`relu_stage`), the sixteen columns normalized row by row
  (`mean_stage`), and the softplus-plus-one column (`var_stage`). The bias arrays are taken as the kernel
  program's host operations make them, a vector reshaped to one row (`b32`, `b16`, `b1`); the reference
  broadcasts the same vectors, so both read the vector at the column.
-/
import proofs.«170862_j23587960389966_1_alg».proof.Proof.Spec
import proofs.«170862_j23587960389966_1_alg».proof.Proof.RefRead
import proofs.«170862_j23587960389966_1_alg».proof.KernelIdeal
import proofs.«170862_j23587960389966_1_alg».proof.Proof.Region3
import Idealize.ShloMosaic.Lib.Pipeline.Value
import Idealize.ShloMosaic.Lib.ValueIdx
import Idealize.ShloMosaic.Lib.ValueLayout
import Idealize.ShloMosaic.PureOps.Ideal.Laws

noncomputable section

namespace Cert.GcnBridge

open Idealize.ShloMosaic Idealize.ShloMosaic.ValueIdx Cert.GcnSpec
open Cert.ReferenceIdeal Cert.ReferenceIdeal.Read

/-! ## The bias arrays as the kernel program's host operations make them: a vector reshaped to one row -/

/-- The 32 biases as a 1 × 32 row. -/
abbrev b32 (x3 : (⟨S32, .f32⟩ : BufTy).Contents (Elt Ideal)) : Cert.KernelIdeal.S1x32.Idx → EReal :=
  shapeCast Cert.KernelIdeal.S1x32 x3 (by decide)

/-- The 16 biases as a 1 × 16 row. -/
abbrev b16 (x5 : (⟨S16, .f32⟩ : BufTy).Contents (Elt Ideal)) : Cert.KernelIdeal.S1x16.Idx → EReal :=
  shapeCast Cert.KernelIdeal.S1x16 x5 (by decide)

/-- The one bias as a 1 × 1 array. -/
abbrev b1 (x7 : (⟨S1, .f32⟩ : BufTy).Contents (Elt Ideal)) : Cert.KernelIdeal.S1x1.Idx → EReal :=
  shapeCast Cert.KernelIdeal.S1x1 x7 (by decide)

/-- The row at column j is the vector at j. -/
theorem b32_apply (x3 : (⟨S32, .f32⟩ : BufTy).Contents (Elt Ideal)) (u : Fin 1) (j : Fin 32) : b32 x3 (ix2 u j) = x3 (ix1 j) :=
  shapeCast_a_1a_apply _ _ u j

theorem b16_apply (x5 : (⟨S16, .f32⟩ : BufTy).Contents (Elt Ideal)) (u : Fin 1) (j : Fin 16) : b16 x5 (ix2 u j) = x5 (ix1 j) :=
  shapeCast_a_1a_apply _ _ u j

theorem b1_apply (x7 : (⟨S1, .f32⟩ : BufTy).Contents (Elt Ideal)) (u v : Fin 1) : b1 x7 (ix2 u v) = x7 (ix1 v) :=
  shapeCast_a_1a_apply _ _ u v

/-! ## The bias-and-rectify stage -/

/-- Adding the bias row to every row and cutting below at zero, entry by entry, is the reference's stage: its add of the
    bias broadcast over the rows, then its maximum with the zero broadcast everywhere. -/
theorem relu_stage (g : (⟨S100000x32, .f32⟩ : BufTy).Contents (Elt Ideal)) (x3 : (⟨S32, .f32⟩ : BufTy).Contents (Elt Ideal)) :
    arr2 (fun (a : Fin 100000) (j : Fin 32) => max (g (ix2 a j) + b32 x3 (ix2 (0 : Fin 1) j)) (Ideal.ofBits .f32 0x00000000#32))
      = maximumf (F := Ideal) (s := S100000x32) (φ := .f32) (addf (F := Ideal) (s := S100000x32) (φ := .f32) g (val_main_v45 (F := Ideal) x3))
          (val_main_call1_v0 (F := Ideal)) := by
  apply ext2; intro a j
  rw [arr2_ix2, maximumf_apply, addf_apply, val_main_v45_apply, val_main_v44_apply, val_main_call1_v0_apply,
    val_main_call1_cst_apply, b32_apply]
  have e : idx_main_v44 (idx_main_v45 (ix2 a j)) = ix1 j := funext fun d => by
    match d with
    | ⟨0, _⟩ => rfl
  rw [e]
  rfl

/-! ## The normalizing stage -/

/-- Entry (a, j) of the biased sixteen columns: column j of row a of a 17-column array plus column j's bias. -/
abbrev biasedOf (G17 : (⟨Cert.KernelIdeal.S100000x17, .f32⟩ : BufTy).Contents (Elt Ideal)) (x5 : (⟨S16, .f32⟩ : BufTy).Contents (Elt Ideal))
    (a : Fin 100000) (j : Fin 16) : EReal :=
  G17 (ix2 a (Fin.castLE (by decide : 16 ≤ 17) j)) + b16 x5 (ix2 (0 : Fin 1) j)

/-- Each biased row divided by the square root of its sum of squares, entry by entry, is the reference's stage: its
    divide of the biased array by the broadcast root of its row sums of squares — whenever the first sixteen columns of
    the 17-column array are the reference's unbiased array (`hcol`). The reference's row sum starts from the zero
    word, whose value is 0. -/
theorem mean_stage (G17 : (⟨Cert.KernelIdeal.S100000x17, .f32⟩ : BufTy).Contents (Elt Ideal))
    (x0 : (⟨S100000x128, .f32⟩ : BufTy).Contents (Elt Ideal)) (x1 : (⟨S2x3200000, .i32⟩ : BufTy).Contents (Elt Ideal))
    (x2 : (⟨S128x32, .f32⟩ : BufTy).Contents (Elt Ideal)) (x3 : (⟨S32, .f32⟩ : BufTy).Contents (Elt Ideal))
    (x4 : (⟨S32x16, .f32⟩ : BufTy).Contents (Elt Ideal)) (x5 : (⟨S16, .f32⟩ : BufTy).Contents (Elt Ideal))
    (hcol : ∀ (a : Fin 100000) (j : Fin 16),
      G17 (ix2 a (Fin.castLE (by decide : 16 ≤ 17) j)) = val_main_v61 (F := Ideal) x0 x1 x2 x3 x4 (ix2 a j)) :
    arr2 (fun (a : Fin 100000) (j : Fin 16) =>
        Ideal.div (biasedOf G17 x5 a j) (Ideal.sqrt (∑ l : Fin 16, biasedOf G17 x5 a l * biasedOf G17 x5 a l)))
      = val_main_v67 (F := Ideal) x0 x1 x2 x3 x4 x5 := by
  apply ext2; intro a j
  have hβ : ∀ l : Fin 16, val_main_v64 (F := Ideal) x0 x1 x2 x3 x4 x5 (ix2 a l) = biasedOf G17 x5 a l := fun l => by
    have e : idx_main_v62 (idx_main_v63 (ix2 a l)) = ix1 l := funext fun d => by
      match d with
      | ⟨0, _⟩ => rfl
    rw [val_main_v64_apply, val_main_v63_apply, val_main_v62_apply, e, ← hcol a l]
    show _ = G17 (ix2 a (Fin.castLE (by decide : 16 ≤ 17) l)) + b16 x5 (ix2 (0 : Fin 1) l)
    rw [b16_apply]
    rfl
  have hsum : val_main_call2_v1 (F := Ideal) x0 x1 x2 x3 x4 x5 (idx_main_call2_v2 (idx_main_v66 (ix2 a j)))
      = ∑ l : Fin 16, biasedOf G17 x5 a l * biasedOf G17 x5 a l := by
    rw [val_main_call2_v1_apply, val_main_call2_cst_apply, Ideal.ofBits_def, Ideal.ofBits_zero_f32, zero_add]
    refine Finset.sum_congr rfl fun l _ => ?_
    have e : idx_main_call2_v1 (idx_main_call2_v2 (idx_main_v66 (ix2 a j))) l = ix2 a l := funext fun d => by
      match d with
      | ⟨0, _⟩ => rfl
      | ⟨1, _⟩ => rfl
    rw [e, val_main_call2_v0_apply, hβ]
    rfl
  rw [arr2_ix2, val_main_v67_apply, val_main_v66_apply, val_main_v65_apply, val_main_call2_v2_apply, hsum, hβ]
  rfl

/-! ## The softplus-plus-one stage -/

/-- The reference's softplus plus one at one element, literally its tree of host operations: with z the zero word's
    value and w the value of the word 0x3F800000, select on "v − z ≠ v − z" between v + z and
    max v z + log1p (exp (−|v − z|)), plus w. -/
def hostSoftplus1 (v : EReal) : EReal :=
  FloatOps.addf (F := Ideal) (φ := .f32)
    (Scalar.select
      (FloatOps.cmpf (F := Ideal) (φ := .f32) .une (FloatOps.subf (F := Ideal) (φ := .f32) v (FloatOps.ofBits .f32 0x00000000#32))
        (FloatOps.subf (F := Ideal) (φ := .f32) v (FloatOps.ofBits .f32 0x00000000#32)))
      (FloatOps.addf (F := Ideal) (φ := .f32) v (FloatOps.ofBits .f32 0x00000000#32))
      (FloatOps.addf (F := Ideal) (φ := .f32) (FloatOps.maximumf (F := Ideal) (φ := .f32) v (FloatOps.ofBits .f32 0x00000000#32))
        (FloatOps.hostUnary (F := Ideal) (φ := .f32) .log1p (FloatOps.hostUnary (F := Ideal) (φ := .f32) .exp
          (FloatOps.hostNegf (F := Ideal) (φ := .f32) (FloatOps.hostAbsf (F := Ideal) (φ := .f32)
            (FloatOps.subf (F := Ideal) (φ := .f32) v (FloatOps.ofBits .f32 0x00000000#32))))))))
    (FloatOps.ofBits .f32 0x3F800000#32)

/-- The absolute value over the extended reals is the maximum with the negation. -/
theorem absf_ideal (x : EReal) : FloatOps.absf (F := Ideal) (φ := .f32) x = max x (-x) := rfl

/-- A comparison over the extended reals is the linear order's. -/
theorem cmpf_ideal (p : CmpFPredicate) (x y : EReal) : FloatOps.cmpf (F := Ideal) (φ := .f32) p x y = Ideal.cmp p x y := rfl

/-- Over the extended reals "ordered and not equal" and "unordered or not equal" are the same test, x ≠ y. -/
theorem cmp_one_eq_une (x y : EReal) : Ideal.cmp .one x y = Ideal.cmp .une x y := rfl

/-- The kernel's tree of operations and the reference's differ in two spellings only: the kernel subtracts the absolute
    value from the zero word's value where the reference negates it (the zero word's value is 0, and 0 − x = −x), and
    the kernel tests "ordered and not equal" where the reference tests "unordered or not equal". -/
theorem kSoftplus1_eq_host (v : EReal) : Cert.KernelIdeal.RegionValue.kSoftplus1 v = hostSoftplus1 v := by
  have hneg : Ideal.ofBits .f32 0x00000000#32 - max (v - Ideal.ofBits .f32 0x00000000#32) (-(v - Ideal.ofBits .f32 0x00000000#32))
      = -(max (v - Ideal.ofBits .f32 0x00000000#32) (-(v - Ideal.ofBits .f32 0x00000000#32))) := by
    rw [Ideal.ofBits_zero_f32, zero_sub]
  unfold Cert.KernelIdeal.RegionValue.kSoftplus1 hostSoftplus1
  rw [hneg, cmp_one_eq_une, Ideal.hostAbsf_def, absf_ideal, Ideal.hostNegf_def, Ideal.negf_def, Ideal.hostUnary_exp_def,
    Ideal.hostUnary_log1p_def, Ideal.subf_def, Ideal.maximumf_def, cmpf_ideal, Ideal.ofBits_def, Ideal.ofBits_def]
  simp only [Ideal.addf_def]

/-- The reference's zero broadcast, read anywhere, is the zero word's value (its three copies). -/
theorem zero0_read (i : S100000x1.Idx) : val_main_call3_v0 (F := Ideal) i = FloatOps.ofBits (F := Ideal) .f32 0x00000000#32 :=
  (val_main_call3_v0_apply i).trans (val_main_call3_cst_apply _)
theorem zero2_read (i : S100000x1.Idx) : val_main_call3_v2 (F := Ideal) i = FloatOps.ofBits (F := Ideal) .f32 0x00000000#32 :=
  (val_main_call3_v2_apply i).trans (val_main_call3_cst_apply _)
theorem zero5_read (i : S100000x1.Idx) : val_main_call3_v5 (F := Ideal) i = FloatOps.ofBits (F := Ideal) .f32 0x00000000#32 :=
  (val_main_call3_v5_apply i).trans (val_main_call3_cst_apply _)
/-- The reference's one broadcast, read anywhere, is the value of the word 0x3F800000. -/
theorem one_read (i : S100000x1.Idx) : val_main_v85 (F := Ideal) i = FloatOps.ofBits (F := Ideal) .f32 0x3F800000#32 :=
  (val_main_v85_apply i).trans (val_main_cst_15_apply _)

/-- The reference's last stage at an index is its softplus-plus-one tree of the biased column there. -/
theorem host_softplus_read (x0 : (⟨S100000x128, .f32⟩ : BufTy).Contents (Elt Ideal)) (x1 : (⟨S2x3200000, .i32⟩ : BufTy).Contents (Elt Ideal))
    (x2 : (⟨S128x32, .f32⟩ : BufTy).Contents (Elt Ideal)) (x3 : (⟨S32, .f32⟩ : BufTy).Contents (Elt Ideal))
    (x6 : (⟨S32x1, .f32⟩ : BufTy).Contents (Elt Ideal)) (x7 : (⟨S1, .f32⟩ : BufTy).Contents (Elt Ideal)) (i : S100000x1.Idx) :
    val_main_v86 (F := Ideal) x0 x1 x2 x3 x6 x7 i = hostSoftplus1 (val_main_v83 (F := Ideal) x0 x1 x2 x3 x6 x7 i) := by
  unfold hostSoftplus1
  rw [val_main_v86_apply, val_main_v84_apply, val_main_call3_v4_apply, val_main_call3_v6_apply, val_main_call3_v11_apply,
    val_main_call3_v1_apply, val_main_call3_v10_apply, val_main_call3_v9_apply, val_main_call3_v8_apply,
    val_main_call3_v7_apply, val_main_call3_v3_apply, zero0_read, zero2_read, zero5_read, one_read]

/-- The softplus-plus-one of the seventeenth column plus the one bias, entry by entry, is the reference's stage — whenever
    the seventeenth column of the 17-column array is the reference's unbiased one-column array (`hlast`). -/
theorem var_stage (G17 : (⟨Cert.KernelIdeal.S100000x17, .f32⟩ : BufTy).Contents (Elt Ideal))
    (x0 : (⟨S100000x128, .f32⟩ : BufTy).Contents (Elt Ideal)) (x1 : (⟨S2x3200000, .i32⟩ : BufTy).Contents (Elt Ideal))
    (x2 : (⟨S128x32, .f32⟩ : BufTy).Contents (Elt Ideal)) (x3 : (⟨S32, .f32⟩ : BufTy).Contents (Elt Ideal))
    (x6 : (⟨S32x1, .f32⟩ : BufTy).Contents (Elt Ideal)) (x7 : (⟨S1, .f32⟩ : BufTy).Contents (Elt Ideal))
    (hlast : ∀ a : Fin 100000,
      G17 (ix2 a (16 : Fin 17)) = val_main_v80 (F := Ideal) x0 x1 x2 x3 x6 (ix2 a (0 : Fin 1))) :
    arr2 (fun (a : Fin 100000) (_ : Fin 1) =>
        Cert.KernelIdeal.RegionValue.kSoftplus1 (G17 (ix2 a (16 : Fin 17)) + b1 x7 (ix2 (0 : Fin 1) (0 : Fin 1))))
      = val_main_v86 (F := Ideal) x0 x1 x2 x3 x6 x7 := by
  apply ext2; intro a u
  have hu : u = 0 := Subsingleton.elim _ _
  subst hu
  have hv : val_main_v83 (F := Ideal) x0 x1 x2 x3 x6 x7 (ix2 a (0 : Fin 1))
      = G17 (ix2 a (16 : Fin 17)) + b1 x7 (ix2 (0 : Fin 1) (0 : Fin 1)) := by
    have e : idx_main_v81 (idx_main_v82 (ix2 a (0 : Fin 1))) = ix1 (0 : Fin 1) := funext fun d => by
      match d with
      | ⟨0, _⟩ => rfl
    rw [val_main_v83_apply, val_main_v82_apply, val_main_v81_apply, e, ← hlast a, b1_apply]
    rfl
  rw [arr2_ix2, host_softplus_read, hv]
  exact kSoftplus1_eq_host _

end Cert.GcnBridge

end
-- ==== Proof.KStage2.lean ====
/-
  The idealized kernel program's second layer, read against the reference's stages. The second region rectifies the
  aggregated first layer plus its bias: the reference's rectified layer. The third region multiplies it by the two heads'
  weights set side by side (sixteen columns of the mean head, then the one column of the variance head), so column j < 16
  of its output is the mean head's product and column 16 the variance head's. The aggregation that follows treats every
  column alike — each destination node sums, over the edges that end at it, the edge weight times the source node's
  entry in that column — so its first sixteen columns are the reference's aggregate of the mean head and its last
  column the reference's aggregate of the variance head.
-/
import proofs.«170862_j23587960389966_1_alg».proof.Proof.KStage1
import proofs.«170862_j23587960389966_1_alg».proof.Proof.Region1
import proofs.«170862_j23587960389966_1_alg».proof.Proof.Region2
import proofs.«170862_j23587960389966_1_alg».proof.Proof.BridgeHeads
import proofs.«170862_j23587960389966_1_alg».proof.Proof.BridgeEpilogue

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

open Cert.GcnSpec Cert.GcnBridge

/-- After the second region its output array is the reference's rectified first layer. -/
theorem rectified (c : Dev nD) : W6 m ρ c (Proc.devRef .tc main_v45) = (Cert.ReferenceIdeal.Read.val_main_v47 (F := Ideal) (m ((c : Thread nD τ).loc main_arg0)) (m ((c : Thread nD τ).loc main_arg1)) (m ((c : Thread nD τ).loc main_arg2)) (m ((c : Thread nD τ).loc main_arg3))) := by
  rw [Fold.W6_v45, RegionValue.final1]
  have ein : RegionValue.reluIn (V5 m ρ) c = (Cert.ReferenceIdeal.Read.val_main_v43 (F := Ideal) (m ((c : Thread nD τ).loc main_arg0)) (m ((c : Thread nD τ).loc main_arg1)) (m ((c : Thread nD τ).loc main_arg2))) := first_aggregate m ρ c
  have eb : RegionValue.reluBias (V5 m ρ) c = b32 (m ((c : Thread nD τ).loc main_arg3)) := first_bias m ρ c
  rw [ein, eb]
  exact relu_stage _ _

/-- The rectified layer reaches the third region unchanged. -/
theorem second_input (c : Dev nD) : W7 m ρ c (Proc.devRef .tc main_v45) = (Cert.ReferenceIdeal.Read.val_main_v47 (F := Ideal) (m ((c : Thread nD τ).loc main_arg0)) (m ((c : Thread nD τ).loc main_arg1)) (m ((c : Thread nD τ).loc main_arg2)) (m ((c : Thread nD τ).loc main_arg3))) :=
  (Fold.W7_v45 m ρ c).trans (rectified m ρ c)

/-- The third region's weights are the two heads' weights side by side. -/
theorem joined_weights (c : Dev nD) : W7 m ρ c (Proc.devRef .tc main_v46) = Wmv (m ((c : Thread nD τ).loc main_arg4)) (m ((c : Thread nD τ).loc main_arg6)) := by
  have h := Fold.stretch2_v46 (F := Ideal) (W6 m ρ c)
  rw [Fold.W6_arg4 m ρ c, Fold.W6_arg6 m ρ c] at h
  exact h

/-- After the third region its output array is the product of the rectified layer with the joined weights. -/
theorem second_product (c : Dev nD) : W8 m ρ c (Proc.devRef .tc main_v47)
    = arr2 (mmAt (n := 100000) (k := 32) (c := 17) (Cert.ReferenceIdeal.Read.val_main_v47 (F := Ideal) (m ((c : Thread nD τ).loc main_arg0)) (m ((c : Thread nD τ).loc main_arg1)) (m ((c : Thread nD τ).loc main_arg2)) (m ((c : Thread nD τ).loc main_arg3))) (Wmv (m ((c : Thread nD τ).loc main_arg4)) (m ((c : Thread nD τ).loc main_arg6)))) := by
  rw [Fold.W8_v47, RegionValue.final2]
  have e0 : V7 m ρ c main_v45 = (Cert.ReferenceIdeal.Read.val_main_v47 (F := Ideal) (m ((c : Thread nD τ).loc main_arg0)) (m ((c : Thread nD τ).loc main_arg1)) (m ((c : Thread nD τ).loc main_arg2)) (m ((c : Thread nD τ).loc main_arg3))) := second_input m ρ c
  have e1 : V7 m ρ c main_v46 = Wmv (m ((c : Thread nD τ).loc main_arg4)) (m ((c : Thread nD τ).loc main_arg6)) := joined_weights m ρ c
  rw [e0, e1]

/-- The aggregated second layer as the last region finds it: an array of 100000 rows and 17 columns. -/
abbrev aggregated (c : Dev nD) : Cert.KernelIdeal.S100000x17.Idx → EReal := W9 m ρ c (Proc.devRef .tc main_v60)

/-- It is the one aggregation of all seventeen columns of the second product, with the reference's edge data. -/
theorem second_aggregate (c : Dev nD) : aggregated m ρ c
    = Cert.GcnAgg.aggK17 (Cert.ReferenceIdeal.Read.val_main_v29 (F := Ideal) (m ((c : Thread nD τ).loc main_arg1))) (Cert.ReferenceIdeal.Read.val_main_v3 (F := Ideal) (m ((c : Thread nD τ).loc main_arg1))) (Cert.ReferenceIdeal.Read.val_main_v6 (F := Ideal) (m ((c : Thread nD τ).loc main_arg1)))
        (arr2 (mmAt (n := 100000) (k := 32) (c := 17) (Cert.ReferenceIdeal.Read.val_main_v47 (F := Ideal) (m ((c : Thread nD τ).loc main_arg0)) (m ((c : Thread nD τ).loc main_arg1)) (m ((c : Thread nD τ).loc main_arg2)) (m ((c : Thread nD τ).loc main_arg3))) (Wmv (m ((c : Thread nD τ).loc main_arg4)) (m ((c : Thread nD τ).loc main_arg6))))) := by
  have h := Fold.stretch3_v60 (F := Ideal) (W8 m ρ c)
  rw [Fold.W8_v29 m ρ c, Fold.W8_v3 m ρ c, Fold.W8_v6 m ρ c, Glue.W3_weight m ρ c, Glue.W3_src m ρ c, Glue.W3_dst m ρ c,
    second_product m ρ c] at h
  exact h

/-- Its first sixteen columns are the reference's aggregate of the mean head. -/
theorem aggregated_col (c : Dev nD) (i : Fin 100000) (j : Fin 16) :
    aggregated m ρ c (ix2 i (Fin.castLE (by decide) j)) = (Cert.ReferenceIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (ix2 i j) := by
  rw [second_aggregate m ρ c]
  refine (Cert.GcnAgg.agg17_col _ _ _ _ (Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (fun r j' => ?_) i j).trans ?_
  · rw [arr2_ix2]; exact heads_col _ _ _ _ _ _ r j'
  · exact (congrFun (Cert.GcnAgg.refAgg16 _ _ _ _ _) (ix2 i j)).symm

/-- Its last column is the reference's aggregate of the variance head. -/
theorem aggregated_last (c : Dev nD) (i : Fin 100000) :
    aggregated m ρ c (ix2 i (16 : Fin 17)) = (Cert.ReferenceIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg6))) (ix2 i (0 : Fin 1)) := by
  rw [second_aggregate m ρ c]
  refine (Cert.GcnAgg.agg17_last _ _ _ _ (Cert.ReferenceIdeal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg6))) (fun r => ?_) i).trans ?_
  · rw [arr2_ix2]; exact heads_last _ _ _ _ _ _ r
  · exact (congrFun (Cert.GcnAgg.refAgg1 _ _ _ _ _) (ix2 i (0 : Fin 1))).symm

/-- The mean head's bias reaches the last region as a one-row matrix. -/
theorem mean_bias (c : Dev nD) : W9 m ρ c (Proc.devRef .tc main_v61) = b16 (m ((c : Thread nD τ).loc main_arg5)) := by
  have h := Fold.stretch3_v61 (F := Ideal) (W8 m ρ c)
  rw [Fold.W8_arg5 m ρ c] at h
  exact h

/-- The variance head's bias reaches the last region as a one-by-one matrix. -/
theorem var_bias (c : Dev nD) : W9 m ρ c (Proc.devRef .tc main_v62) = b1 (m ((c : Thread nD τ).loc main_arg7)) := by
  have h := Fold.stretch3_v62 (F := Ideal) (W8 m ρ c)
  rw [Fold.W8_arg7 m ρ c] at h
  exact h

end Cert.KernelIdeal.Stage

end
-- ==== Proof.KStage3.lean ====
/-
  The last region of the idealized kernel program, read against the reference's two results. It takes the aggregated
  second layer (seventeen columns) and the two heads' biases. Its first output adds the mean head's bias to the first
  sixteen columns and divides every row by the square root of the sum of the row's squares: the reference's mean. Its
  second output adds the variance head's bias to the last column, applies softplus and adds one: the reference's
  variance. The columns it reads are the reference's aggregates, one by one.
-/
import proofs.«170862_j23587960389966_1_alg».proof.Proof.KStage2
import proofs.«170862_j23587960389966_1_alg».proof.Proof.Region3
import proofs.«170862_j23587960389966_1_alg».proof.Proof.BridgeEpilogue

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

open Cert.GcnSpec Cert.GcnBridge

/-- The mean array the program returns is the reference's mean stage of the arguments. -/
theorem mean_result (c : Dev nD) : W10 m ρ c (Proc.devRef .tc main_v63_0) = (Cert.ReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [Fold.W10_mean, RegionValue.final3_mean]
  have hb : ∀ (a : Fin 100000) (j : Fin 16), RegionValue.biasedAt (V9 m ρ) c a j
      = aggregated m ρ c (ix2 a (Fin.castLE (by decide) j)) + b16 (m ((c : Thread nD τ).loc main_arg5)) (ix2 (0 : Fin 1) j) := by
    intro a j
    unfold RegionValue.biasedAt
    rw [show RegionValue.meanBias (V9 m ρ) c = b16 (m ((c : Thread nD τ).loc main_arg5)) from mean_bias m ρ c]
  simp only [hb]
  exact mean_stage (aggregated m ρ c) _ _ _ _ _ _ (aggregated_col m ρ c)

/-- The variance array the program returns is the reference's variance stage of the arguments. -/
theorem var_result (c : Dev nD) : W10 m ρ c (Proc.devRef .tc main_v63_1) = (Cert.ReferenceIdeal.Read.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7))) := by
  rw [Fold.W10_var, RegionValue.final3_var]
  rw [show RegionValue.varBias (V9 m ρ) c = b1 (m ((c : Thread nD τ).loc main_arg7)) from var_bias m ρ c]
  exact var_stage (aggregated m ρ c) _ _ _ _ _ _ (aggregated_last m ρ c)

end Cert.KernelIdeal.Stage

end
-- ==== Proof.lean ====
/-
  The certificate of a two-layer graph convolution with a mean head and a variance head (100000 nodes, 3200000 edges and
  one self-loop per node), computed by four TensorCore kernels among host operations, against its jnp reference, over the
  extended reals.

  Both programs build the same edge data from the edge-index argument by the same operations: each edge's source and
  destination node, and its weight, the product of the inverse square roots of the two end nodes' degrees. A layer is
  "multiply the node features by a weight matrix; for every destination node sum, over the edges ending there, the edge
  weight times the source node's row; add a bias". The kernel program differs from the reference in three ways only,
  none of which changes a value on the extended reals:
    • its products are computed in row blocks of 5000 by a matrix unit fed bf16 (a change of float format is the
      identity here) into a zero accumulator, where the reference has one `dot_general`: entry by entry both are the
      same finite sum over the contracted axis;
    • in the second layer it multiplies by the two heads' weights set side by side and aggregates the seventeen columns
      at once, where the reference multiplies and aggregates the sixteen-column mean head and the one-column variance
      head separately: the aggregation acts on every column alike, so the columns agree one by one;
    • the epilogues (bias and rectify; bias, then divide each row by the square root of the sum of its squares; bias,
      softplus, add one) are fused into kernels over row blocks, where the reference applies the same operations to
      whole arrays; the softplus is spelt with `0 - |v|` for `-|v|` and tests "is not a number" by another
      comparison of `v` with itself, which on the extended reals is false either way.
  No step needs the inputs to be finite: no product is distributed over a sum and nothing is cancelled.

  The frames of the two kernel programs are the generated ones; the reference's frame is its run with the results
  dropped. The idealization rewrote no operation, so `preserves` asks nothing.
-/
import proofs.«170862_j23587960389966_1_alg».proof.Defs
import proofs.«170862_j23587960389966_1_alg».proof.Proof.Gen.Kernel
import proofs.«170862_j23587960389966_1_alg».proof.Proof.Gen.Kernel.Frame
import proofs.«170862_j23587960389966_1_alg».proof.Proof.Gen.KernelIdeal
import proofs.«170862_j23587960389966_1_alg».proof.Proof.Gen.KernelIdeal.Frame
import proofs.«170862_j23587960389966_1_alg».proof.Proof.Gen.ReferenceIdeal
import proofs.«170862_j23587960389966_1_alg».proof.Proof.Gen.Pre_finite_inputs
import proofs.«170862_j23587960389966_1_alg».proof.Proof.RefRun
import proofs.«170862_j23587960389966_1_alg».proof.Proof.RefRead
import proofs.«170862_j23587960389966_1_alg».proof.Proof.KRun
import proofs.«170862_j23587960389966_1_alg».proof.Proof.KStage3
import Idealize.ShloMosaic.Adequacy
import Idealize.ShloMosaic.Init

noncomputable section

namespace Cert.Proof

open Idealize.ShloMosaic Idealize.SL.Sem

/-- The word-level kernel program runs, faults nowhere and leaves its arguments as launched. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- So does the idealized reference: its run, with what it says of the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The idealization rewrote no operation of the kernel program. -/
theorem preserves : Cert.preserves_Kernel_KernelIdeal := trivial

/-- From memories that agree on the eight arguments both idealized programs run and end with the same two result arrays:
    the reference's mean stage and variance stage of the arguments. -/
theorem algebraic : Cert.algebraic_KernelIdeal_ReferenceIdeal := by
  intro m ρ m' ρ' _ hagree
  refine ⟨fun c => Cert.ReferenceIdeal.Read.val_main_v67 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.Read.val_main_v86 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Stage.mean_result m ρ c), (h c).2.1.trans (Cert.KernelIdeal.Stage.var_result m ρ c), (h c).2.2⟩)
      (Cert.KernelIdeal.ValueRun.run_results (F := Ideal) m ρ)
  · refine (θ_run Cert.ReferenceIdeal.defs _ _).mono (fun r h c => ⟨?_, ?_, (h c).2.2⟩)
      (Cert.ReferenceIdeal.Value.run (F := Ideal) m' ρ')
    · rw [(h c).1, Cert.ReferenceIdeal.Read.val_main_v67_eq, (hagree c).1, (hagree c).2.1, (hagree c).2.2.1, (hagree c).2.2.2.1,
        (hagree c).2.2.2.2.1, (hagree c).2.2.2.2.2.1]
    · rw [(h c).2.1, Cert.ReferenceIdeal.Read.val_main_v86_eq, (hagree c).1, (hagree c).2.1, (hagree c).2.2.1, (hagree c).2.2.2.1,
        (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
